-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1200000 : Shape := ⟨2, ![2, 1200000]⟩
abbrev S256x64 : Shape := ⟨2, ![256, 64]⟩
abbrev S64 : Shape := ⟨1, ![64]⟩
abbrev S64x64 : Shape := ⟨2, ![64, 64]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S50000x256 .f32) (main_arg1 : IVec S2x1200000 32) (main_arg2 : FVec F S256x64 .f32) (main_arg3 : FVec F S64 .f32) (main_arg4 : FVec F S64x64 .f32) (main_arg5 : FVec F S64 .f32) (main_arg6 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S50000x256 : Shape := ⟨2, ![50000, 256]⟩
abbrev S2x1200000 : Shape := ⟨2, ![2, 1200000]⟩
abbrev S256x64 : Shape := ⟨2, ![256, 64]⟩
abbrev S64 : Shape := ⟨1, ![64]⟩
abbrev S64x64 : Shape := ⟨2, ![64, 64]⟩
abbrev S1 : Shape := ⟨1, ![1]⟩
abbrev S50000 : Shape := ⟨1, ![50000]⟩
abbrev S1x1200000 : Shape := ⟨2, ![1, 1200000]⟩
abbrev S1200000 : Shape := ⟨1, ![1200000]⟩
abbrev S1250000 : Shape := ⟨1, ![1250000]⟩
abbrev S_ : Shape := ⟨0, ![]⟩
abbrev S1250000x1 : Shape := ⟨2, ![1250000, 1]⟩
abbrev S50000x64 : Shape := ⟨2, ![50000, 64]⟩
abbrev S5000x256 : Shape := ⟨2, ![5000, 256]⟩
abbrev S5000x64 : Shape := ⟨2, ![5000, 64]⟩
abbrev S1250000x64 : Shape := ⟨2, ![1250000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 83
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x1200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1, .f32⟩
  | .hbm, ⟨7, _⟩ => ⟨S50000, .i32⟩
  | .hbm, ⟨8, _⟩ => ⟨S1x1200000, .i32⟩
  | .hbm, ⟨9, _⟩ => ⟨S1200000, .i32⟩
  | .hbm, ⟨10, _⟩ => ⟨S1250000, .i32⟩
  | .hbm, ⟨11, _⟩ => ⟨S1x1200000, .i32⟩
  | .hbm, ⟨12, _⟩ => ⟨S1200000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S50000, .f32⟩
  | .hbm, ⟨18, _⟩ => ⟨S1250000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1250000, .i32⟩
  | .hbm, ⟨30, _⟩ => ⟨S1250000, .i1⟩
  | .hbm, ⟨31, _⟩ => ⟨S_, .i32⟩
  | .hbm, ⟨32, _⟩ => ⟨S1250000, .i32⟩
  | .hbm, ⟨33, _⟩ => ⟨S1250000, .i32⟩
  | .hbm, ⟨34, _⟩ => ⟨S1250000, .i32⟩
  | .hbm, ⟨35, _⟩ => ⟨S1250000x1, .i32⟩
  | .hbm, ⟨36, _⟩ => ⟨S1250000, .f32⟩
  | .hbm, ⟨37, _⟩ => ⟨S_, .i32⟩
  | .hbm, ⟨38, _⟩ => ⟨S1250000, .i32⟩
  | .hbm, ⟨39, _⟩ => ⟨S1250000, .i1⟩
  | .hbm, ⟨40, _⟩ => ⟨S_, .i32⟩
  | .hbm, ⟨41, _⟩ => ⟨S1250000, .i32⟩
  | .hbm, ⟨42, _⟩ => ⟨S1250000, .i32⟩
  | .hbm, ⟨43, _⟩ => ⟨S1250000, .i32⟩
  | .hbm, ⟨44, _⟩ => ⟨S1250000x1, .i32⟩
  | .hbm, ⟨45, _⟩ => ⟨S1250000, .f32⟩
  | .hbm, ⟨46, _⟩ => ⟨S1250000, .f32⟩
  | .hbm, ⟨47, _⟩ => ⟨S50000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S1250000x1, .f32⟩
  | .hbm, ⟨58, _⟩ => ⟨S1250000x64, .f32⟩
  | .hbm, ⟨59, _⟩ => ⟨S1250000x64, .f32⟩
  | .hbm, ⟨60, _⟩ => ⟨S_, .f32⟩
  | .hbm, ⟨61, _⟩ => ⟨S50000x64, .f32⟩
  | .hbm, ⟨62, _⟩ => ⟨S1250000x1, .i32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S_, .i32⟩
  | .hbm, ⟨67, _⟩ => ⟨S1250000, .i32⟩
  | .hbm, ⟨68, _⟩ => ⟨S1250000, .i1⟩
  | .hbm, ⟨69, _⟩ => ⟨S_, .i32⟩
  | .hbm, ⟨70, _⟩ => ⟨S1250000, .i32⟩
  | .hbm, ⟨71, _⟩ => ⟨S1250000, .i32⟩
  | .hbm, ⟨72, _⟩ => ⟨S1250000, .i32⟩
  | .hbm, ⟨73, _⟩ => ⟨S1250000x1, .i32⟩
  | .hbm, ⟨74, _⟩ => ⟨S1250000x64, .f32⟩
  | .hbm, ⟨75, _⟩ => ⟨S1250000x1, .f32⟩
  | .hbm, ⟨76, _⟩ => ⟨S1250000x64, .f32⟩
  | .hbm, ⟨77, _⟩ => ⟨S1250000x64, .f32⟩
  | .hbm, ⟨78, _⟩ => ⟨S_, .f32⟩
  | .hbm, ⟨79, _⟩ => ⟨S50000x64, .f32⟩
  | .hbm, ⟨80, _⟩ => ⟨S1250000x1, .i32⟩
  | .hbm, ⟨81, _⟩ => ⟨S50000x64, .f32⟩
  | .hbm, ⟨82, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S1, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64, .f32⟩
  | .local _ .vmem, ⟨19, _⟩ => ⟨S1, .f32⟩
  | .local _ .vmem, ⟨20, _⟩ => ⟨S5000x64, .f32⟩
  | .local _ .vmem, ⟨21, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S50000_S1250000_d0 : Shape.Concatenates [S1200000, S50000] S1250000 0
  slices_S2x1200000_S1x1200000_1_0 : S2x1200000.Slices ![1, 0] S1x1200000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S1_S1_0 : ∀ a, (![0] : Fin 1 → Nat) a + S1.size a ≤ S1.size a
  h_S1 : 0 < S1.numel
  inpos_S1_p0 : ∀ a, (![0] : Fin 1 → Nat) a < S1.size a
  inb_S64x64_S64x64_0_0 : ∀ a, (![0, 0] : Fin 2 → Nat) a + S64x64.size a ≤ S64x64.size a
  h_S64x64 : 0 < S64x64.numel
  reduces_S5000x64_S5000 : S5000x64.Reduces [1] S5000
  shapeCasts_S5000_S5000x1 : S5000.ShapeCasts S5000x1
  broadcasts_S5000x1_S5000x64 : S5000x1.Broadcasts S5000x64
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  dot_S5000x256_S256x64_S5000x64_1_0_0_1_n_n_wf : DotDims.WF S5000x256 S256x64 S5000x64 [1] [0] [0] [1] [] []
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x1200000 : Shape := ⟨2, ![2, 1200000]⟩
abbrev S256x64 : Shape := ⟨2, ![256, 64]⟩
abbrev S64 : Shape := ⟨1, ![64]⟩
abbrev S64x64 : Shape := ⟨2, ![64, 64]⟩
abbrev S1 : Shape := ⟨1, ![1]⟩
abbrev S50000 : Shape := ⟨1, ![50000]⟩
abbrev S1x1200000 : Shape := ⟨2, ![1, 1200000]⟩
abbrev S1200000 : Shape := ⟨1, ![1200000]⟩
abbrev S1250000 : Shape := ⟨1, ![1250000]⟩
abbrev S_ : Shape := ⟨0, ![]⟩
abbrev S1250000x1 : Shape := ⟨2, ![1250000, 1]⟩
abbrev S50000x64 : Shape := ⟨2, ![50000, 64]⟩
abbrev S1250000x64 : Shape := ⟨2, ![1250000, 64]⟩
abbrev S1x64 : Shape := ⟨2, ![1, 64]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1, .f32⟩
  | .hbm, ⟨7, _⟩ => ⟨S50000, .i32⟩
  | .hbm, ⟨8, _⟩ => ⟨S1x1200000, .i32⟩
  | .hbm, ⟨9, _⟩ => ⟨S1200000, .i32⟩
  | .hbm, ⟨10, _⟩ => ⟨S1250000, .i32⟩
  | .hbm, ⟨11, _⟩ => ⟨S1x1200000, .i32⟩
  | .hbm, ⟨12, _⟩ => ⟨S1200000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S50000, .f32⟩
  | .hbm, ⟨18, _⟩ => ⟨S1250000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1250000, .i32⟩
  | .hbm, ⟨30, _⟩ => ⟨S1250000, .i1⟩
  | .hbm, ⟨31, _⟩ => ⟨S_, .i32⟩
  | .hbm, ⟨32, _⟩ => ⟨S1250000, .i32⟩
  | .hbm, ⟨33, _⟩ => ⟨S1250000, .i32⟩
  | .hbm, ⟨34, _⟩ => ⟨S1250000, .i32⟩
  | .hbm, ⟨35, _⟩ => ⟨S1250000x1, .i32⟩
  | .hbm, ⟨36, _⟩ => ⟨S1250000, .f32⟩
  | .hbm, ⟨37, _⟩ => ⟨S_, .i32⟩
  | .hbm, ⟨38, _⟩ => ⟨S1250000, .i32⟩
  | .hbm, ⟨39, _⟩ => ⟨S1250000, .i1⟩
  | .hbm, ⟨40, _⟩ => ⟨S_, .i32⟩
  | .hbm, ⟨41, _⟩ => ⟨S1250000, .i32⟩
  | .hbm, ⟨42, _⟩ => ⟨S1250000, .i32⟩
  | .hbm, ⟨43, _⟩ => ⟨S1250000, .i32⟩
  | .hbm, ⟨44, _⟩ => ⟨S1250000x1, .i32⟩
  | .hbm, ⟨45, _⟩ => ⟨S1250000, .f32⟩
  | .hbm, ⟨46, _⟩ => ⟨S1250000, .f32⟩
  | .hbm, ⟨47, _⟩ => ⟨S50000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S1250000x1, .f32⟩
  | .hbm, ⟨58, _⟩ => ⟨S1250000x64, .f32⟩
  | .hbm, ⟨59, _⟩ => ⟨S1250000x64, .f32⟩
  | .hbm, ⟨60, _⟩ => ⟨S_, .f32⟩
  | .hbm, ⟨61, _⟩ => ⟨S50000x64, .f32⟩
  | .hbm, ⟨62, _⟩ => ⟨S1250000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .i1⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S_, .i32⟩
  | .hbm, ⟨76, _⟩ => ⟨S1250000, .i32⟩
  | .hbm, ⟨77, _⟩ => ⟨S1250000, .i1⟩
  | .hbm, ⟨78, _⟩ => ⟨S_, .i32⟩
  | .hbm, ⟨79, _⟩ => ⟨S1250000, .i32⟩
  | .hbm, ⟨80, _⟩ => ⟨S1250000, .i32⟩
  | .hbm, ⟨81, _⟩ => ⟨S1250000, .i32⟩
  | .hbm, ⟨82, _⟩ => ⟨S1250000x1, .i32⟩
  | .hbm, ⟨83, _⟩ => ⟨S1250000x64, .f32⟩
  | .hbm, ⟨84, _⟩ => ⟨S1250000x1, .f32⟩
  | .hbm, ⟨85, _⟩ => ⟨S1250000x64, .f32⟩
  | .hbm, ⟨86, _⟩ => ⟨S1250000x64, .f32⟩
  | .hbm, ⟨87, _⟩ => ⟨S_, .f32⟩
  | .hbm, ⟨88, _⟩ => ⟨S50000x64, .f32⟩
  | .hbm, ⟨89, _⟩ => ⟨S1250000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .i1⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x1, .f32⟩
  | .hbm, ⟨114, _⟩ => ⟨S50000x64, .f32⟩
  | .hbm, ⟨115, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v76 : Ref sig .tc := ⟨.hbm, 115, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S50000_S1250000_d0 : Shape.Concatenates [S1200000, S50000] S1250000 0
  slices_S2x1200000_S1x1200000_1_0 : S2x1200000.Slices ![1, 0] S1x1200000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S1_S_ : S1.ShapeCasts S_
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  dot_S50000x256_S256x64_S50000x64_1_0_0_1_n_n_wf : DotDims.WF S50000x256 S256x64 S50000x64 [1] [0] [0] [1] [] []
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S50000x64_S64x64_S50000x64_1_0_0_1_n_n_wf : DotDims.WF S50000x64 S64x64 S50000x64 [1] [0] [0] [1] [] []

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.ResultRun.lean ====
/-
  The idealized kernel program's run, with its result named. The program is four grid regions among stretches of host
  operations. Starting from the launch memory, each host stretch applies its operations in order, and each region
  leaves its input arrays as it found them and its output array at what its ten grid points wrote back, block after
  block; every other buffer passes through a region unchanged. Folding these steps in program order gives the contents
  of every long-lived buffer when the program returns (`Gen.W9`). Every weakly fair execution terminates, without a
  fault, in a state whose long-lived buffers hold exactly that fold: so the result array `main_v59` ends at the fold's
  value there (the last region's output array after its write-backs), and each of the seven argument arrays, which no
  operation and no region writes, ends as launched.
-/
import proofs.«162441_j60335700574378_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the fold's
    contents and the seven argument arrays as launched. -/
theorem run : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ResultRun

end
-- ==== Proof.HostSide.lean ====
/-
  The host side of the idealized kernel program, one stretch of operations at a time, over ANY contents `X` of the
  buffers at the stretch's start.

  The prologue (three stretches before the first region) reads only the edge index e [2, 1200000]: it appends the
  self-loops to both rows (sources s, targets d, each of length 1250000), counts each node's in-degree by scattering
  ones over d, takes the inverse square root where the degree is positive and zero elsewhere, and multiplies the two
  gathered factors into the edge weights. These are the same operations, in the same order, as the reference's first
  thirty operations, so each value is the reference's stage of e, term for term.

  Each of the two aggregation stretches gathers the rows s of a [50000, 64] array h, scales row k by the weight of edge k,
  and scatter-adds the rows into a zero array at the targets d. Again the operations are the reference's, so when the
  stretch starts from the reference's s, d, weights and h, it ends at the reference's aggregate. The scatter-add's sum over
  edges is never opened: both programs apply the same operation to equal operands.

  A stretch leaves every buffer it does not write as it was.
-/
import proofs.«162441_j60335700574378_1_alg».proof.Proof.Gen.KernelIdeal.Frame
import proofs.«162441_j60335700574378_1_alg».proof.Proof.RefReadP
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo Cert.KernelIdeal Cert.KernelIdeal.Gen

variable (X : Valuation τ sig (Elt Ideal))
variable (x0 : (⟨Cert.ReferenceIdeal.S50000x256, .f32⟩ : BufTy).Contents (Elt Ideal)) (x1 : (⟨Cert.ReferenceIdeal.S2x1200000, .i32⟩ : BufTy).Contents (Elt Ideal))
    (x2 : (⟨Cert.ReferenceIdeal.S256x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x6 : (⟨Cert.ReferenceIdeal.S1, .f32⟩ : BufTy).Contents (Elt Ideal))

/-! ## The prologue, stretch by stretch: sources, targets and edge weights from the edge index -/

/-- The sources with the self-loops appended. -/
theorem stretch0_sources (he : X (Proc.devRef .tc main_arg1) = x1) : after hostOps0 X (Proc.devRef .tc main_v3) = Cert.ReferenceIdeal.ReadP.val_main_v3 (F := Ideal) x1 := by
  subst he; after_results_simp; rfl
/-- The targets with the self-loops appended. -/
theorem stretch0_targets (he : X (Proc.devRef .tc main_arg1) = x1) : after hostOps0 X (Proc.devRef .tc main_v6) = Cert.ReferenceIdeal.ReadP.val_main_v6 (F := Ideal) x1 := by
  subst he; after_results_simp; rfl
/-- Where the in-degree (ones scatter-added over the targets) is positive. -/
theorem stretch0_positive (he : X (Proc.devRef .tc main_arg1) = x1) : after hostOps0 X (Proc.devRef .tc main_v12) = Cert.ReferenceIdeal.ReadP.val_main_v12 (F := Ideal) x1 := by
  subst he; after_results_simp; rfl
/-- The in-degree's inverse square root. -/
theorem stretch0_rsqrt (he : X (Proc.devRef .tc main_arg1) = x1) : after hostOps0 X (Proc.devRef .tc main_v13) = Cert.ReferenceIdeal.ReadP.val_main_v13 (F := Ideal) x1 := by
  subst he; after_results_simp; rfl
/-- The zero that replaces it where the degree is not positive. -/
theorem stretch0_zero : after hostOps0 X (Proc.devRef .tc main_cst_2) = Cert.ReferenceIdeal.ReadP.val_main_cst_2 (F := Ideal) := by
  after_results_simp; rfl

/-! A value written to a buffer and read back at the buffer's declared shape and element type is the value itself. -/

/-- Contents moved to a typed reference's buffer type and back are the contents. -/
theorem ofBuf_toBuf {T : BufTy} {Val : EltTy → Type} (x : StableHlo.TRef sig T) (v : T.Contents Val) : x.ofBuf (x.toBuf v) = v := by
  obtain ⟨r, h, hd, hu⟩ := x
  subst h
  rfl

theorem ofBuf_cst_2 {Val : EltTy → Type} (w : (⟨S_, .f32⟩ : BufTy).Contents Val) :
    ((StableHlo.TRef.of main_cst_2 : StableHlo.TRef sig ⟨S_, .f32⟩).ofBuf w : (⟨S_, .f32⟩ : BufTy).Contents Val) = w := cast_eq _ _
theorem toBuf_cst_2 {Val : EltTy → Type} (w : (⟨S_, .f32⟩ : BufTy).Contents Val) :
    ((StableHlo.TRef.of main_cst_2 : StableHlo.TRef sig ⟨S_, .f32⟩).toBuf w : (⟨S_, .f32⟩ : BufTy).Contents Val) = w := cast_eq _ _
theorem ofBuf_call0_v0 {Val : EltTy → Type} (w : (⟨S_, .f32⟩ : BufTy).Contents Val) :
    ((StableHlo.TRef.of main_call0_v0 : StableHlo.TRef sig ⟨S_, .f32⟩).ofBuf w : (⟨S_, .f32⟩ : BufTy).Contents Val) = w := cast_eq _ _
theorem toBuf_call0_v0 {Val : EltTy → Type} (w : (⟨S_, .f32⟩ : BufTy).Contents Val) :
    ((StableHlo.TRef.of main_call0_v0 : StableHlo.TRef sig ⟨S_, .f32⟩).toBuf w : (⟨S_, .f32⟩ : BufTy).Contents Val) = w := cast_eq _ _
theorem ofBuf_call0_v1 {Val : EltTy → Type} (w : (⟨S50000, .f32⟩ : BufTy).Contents Val) :
    ((StableHlo.TRef.of main_call0_v1 : StableHlo.TRef sig ⟨S50000, .f32⟩).ofBuf w : (⟨S50000, .f32⟩ : BufTy).Contents Val) = w := cast_eq _ _
theorem toBuf_call0_v1 {Val : EltTy → Type} (w : (⟨S50000, .f32⟩ : BufTy).Contents Val) :
    ((StableHlo.TRef.of main_call0_v1 : StableHlo.TRef sig ⟨S50000, .f32⟩).toBuf w : (⟨S50000, .f32⟩ : BufTy).Contents Val) = w := cast_eq _ _
theorem ofBuf_v12 {Val : EltTy → Type} (w : (⟨S50000, .i1⟩ : BufTy).Contents Val) :
    ((StableHlo.TRef.of main_v12 : StableHlo.TRef sig ⟨S50000, .i1⟩).ofBuf w : (⟨S50000, .i1⟩ : BufTy).Contents Val) = w := cast_eq _ _
theorem toBuf_v12 {Val : EltTy → Type} (w : (⟨S50000, .i1⟩ : BufTy).Contents Val) :
    ((StableHlo.TRef.of main_v12 : StableHlo.TRef sig ⟨S50000, .i1⟩).toBuf w : (⟨S50000, .i1⟩ : BufTy).Contents Val) = w := cast_eq _ _
theorem ofBuf_v13 {Val : EltTy → Type} (w : (⟨S50000, .f32⟩ : BufTy).Contents Val) :
    ((StableHlo.TRef.of main_v13 : StableHlo.TRef sig ⟨S50000, .f32⟩).ofBuf w : (⟨S50000, .f32⟩ : BufTy).Contents Val) = w := cast_eq _ _
theorem toBuf_v13 {Val : EltTy → Type} (w : (⟨S50000, .f32⟩ : BufTy).Contents Val) :
    ((StableHlo.TRef.of main_v13 : StableHlo.TRef sig ⟨S50000, .f32⟩).toBuf w : (⟨S50000, .f32⟩ : BufTy).Contents Val) = w := cast_eq _ _
theorem ofBuf_v14 {Val : EltTy → Type} (w : (⟨S50000, .f32⟩ : BufTy).Contents Val) :
    ((StableHlo.TRef.of main_v14 : StableHlo.TRef sig ⟨S50000, .f32⟩).ofBuf w : (⟨S50000, .f32⟩ : BufTy).Contents Val) = w := cast_eq _ _
theorem toBuf_v14 {Val : EltTy → Type} (w : (⟨S50000, .f32⟩ : BufTy).Contents Val) :
    ((StableHlo.TRef.of main_v14 : StableHlo.TRef sig ⟨S50000, .f32⟩).toBuf w : (⟨S50000, .f32⟩ : BufTy).Contents Val) = w := cast_eq _ _

/-- The second stretch selects: the inverse square root where the degree is positive, zero elsewhere. -/
theorem stretch1_factor (hp : X (Proc.devRef .tc main_v12) = Cert.ReferenceIdeal.ReadP.val_main_v12 (F := Ideal) x1) (hr : X (Proc.devRef .tc main_v13) = Cert.ReferenceIdeal.ReadP.val_main_v13 (F := Ideal) x1) (hz : X (Proc.devRef .tc main_cst_2) = Cert.ReferenceIdeal.ReadP.val_main_cst_2 (F := Ideal)) :
    after hostOps0_1 X (Proc.devRef .tc main_v14) = Cert.ReferenceIdeal.ReadP.val_main_v14 (F := Ideal) x1 := by
  after_results_simp; rw [hp, hr, hz]
  simp only [ofBuf_toBuf, ofBuf_cst_2, toBuf_cst_2, ofBuf_call0_v0, toBuf_call0_v0, ofBuf_call0_v1, toBuf_call0_v1, ofBuf_v12, toBuf_v12, ofBuf_v13, toBuf_v13, ofBuf_v14, toBuf_v14]
  rfl
theorem stretch1_keeps_v3 : after hostOps0_1 X (Proc.devRef .tc main_v3) = X (Proc.devRef .tc main_v3) := by
  after_results_simp
theorem stretch1_keeps_v6 : after hostOps0_1 X (Proc.devRef .tc main_v6) = X (Proc.devRef .tc main_v6) := by
  after_results_simp

/-- The third stretch gathers the factor at both endpoints of every edge and multiplies. -/
theorem stretch2_weights (hs : X (Proc.devRef .tc main_v3) = Cert.ReferenceIdeal.ReadP.val_main_v3 (F := Ideal) x1) (hd : X (Proc.devRef .tc main_v6) = Cert.ReferenceIdeal.ReadP.val_main_v6 (F := Ideal) x1) (hf : X (Proc.devRef .tc main_v14) = Cert.ReferenceIdeal.ReadP.val_main_v14 (F := Ideal) x1) :
    after hostOps0_2 X (Proc.devRef .tc main_v29) = Cert.ReferenceIdeal.ReadP.val_main_v29 (F := Ideal) x1 := by
  after_results_simp; rw [hs, hd, hf]; rfl
theorem stretch2_keeps_v3 : after hostOps0_2 X (Proc.devRef .tc main_v3) = X (Proc.devRef .tc main_v3) := by
  after_results_simp
theorem stretch2_keeps_v6 : after hostOps0_2 X (Proc.devRef .tc main_v6) = X (Proc.devRef .tc main_v6) := by
  after_results_simp

/-- The prologue writes no argument array. -/
theorem prologue_keeps_arg0 : after hostOps0_2 (after hostOps0_1 (after hostOps0 X)) (Proc.devRef .tc main_arg0) = X (Proc.devRef .tc main_arg0) := by
  after_results_simp

/-- The prologue writes no argument array. -/
theorem prologue_keeps_arg2 : after hostOps0_2 (after hostOps0_1 (after hostOps0 X)) (Proc.devRef .tc main_arg2) = X (Proc.devRef .tc main_arg2) := by
  after_results_simp

/-- The prologue writes no argument array. -/
theorem prologue_keeps_arg3 : after hostOps0_2 (after hostOps0_1 (after hostOps0 X)) (Proc.devRef .tc main_arg3) = X (Proc.devRef .tc main_arg3) := by
  after_results_simp

/-- The prologue writes no argument array. -/
theorem prologue_keeps_arg4 : after hostOps0_2 (after hostOps0_1 (after hostOps0 X)) (Proc.devRef .tc main_arg4) = X (Proc.devRef .tc main_arg4) := by
  after_results_simp

/-- The prologue writes no argument array. -/
theorem prologue_keeps_arg5 : after hostOps0_2 (after hostOps0_1 (after hostOps0 X)) (Proc.devRef .tc main_arg5) = X (Proc.devRef .tc main_arg5) := by
  after_results_simp

/-- The prologue writes no argument array. -/
theorem prologue_keeps_arg6 : after hostOps0_2 (after hostOps0_1 (after hostOps0 X)) (Proc.devRef .tc main_arg6) = X (Proc.devRef .tc main_arg6) := by
  after_results_simp

/-! ## The first aggregation stretch -/

/-- From the reference's sources, targets, weights and first projection, the stretch ends at the reference's first
    aggregate. -/
theorem aggregate1 (hs : X (Proc.devRef .tc main_v3) = Cert.ReferenceIdeal.ReadP.val_main_v3 (F := Ideal) x1) (hd : X (Proc.devRef .tc main_v6) = Cert.ReferenceIdeal.ReadP.val_main_v6 (F := Ideal) x1)
    (hn : X (Proc.devRef .tc main_v29) = Cert.ReferenceIdeal.ReadP.val_main_v29 (F := Ideal) x1) (hh : X (Proc.devRef .tc main_v30) = Cert.ReferenceIdeal.ReadP.val_main_v30 (F := Ideal) x0 x2) :
    after hostOps1 X (Proc.devRef .tc main_v43) = Cert.ReferenceIdeal.ReadP.val_main_v43 (F := Ideal) x0 x1 x2 := by
  after_results_simp
  rw [hs, hd, hn, hh]
  rfl

/-- The stretch does not write this buffer. -/
theorem aggregate1_keeps_arg3 : after hostOps1 X (Proc.devRef .tc main_arg3) = X (Proc.devRef .tc main_arg3) := by
  after_results_simp

/-- The stretch does not write this buffer. -/
theorem aggregate1_keeps_arg4 : after hostOps1 X (Proc.devRef .tc main_arg4) = X (Proc.devRef .tc main_arg4) := by
  after_results_simp

/-- The stretch does not write this buffer. -/
theorem aggregate1_keeps_arg5 : after hostOps1 X (Proc.devRef .tc main_arg5) = X (Proc.devRef .tc main_arg5) := by
  after_results_simp

/-- The stretch does not write this buffer. -/
theorem aggregate1_keeps_arg6 : after hostOps1 X (Proc.devRef .tc main_arg6) = X (Proc.devRef .tc main_arg6) := by
  after_results_simp

/-- The stretch does not write this buffer. -/
theorem aggregate1_keeps_v3 : after hostOps1 X (Proc.devRef .tc main_v3) = X (Proc.devRef .tc main_v3) := by
  after_results_simp

/-- The stretch does not write this buffer. -/
theorem aggregate1_keeps_v6 : after hostOps1 X (Proc.devRef .tc main_v6) = X (Proc.devRef .tc main_v6) := by
  after_results_simp

/-- The stretch does not write this buffer. -/
theorem aggregate1_keeps_v29 : after hostOps1 X (Proc.devRef .tc main_v29) = X (Proc.devRef .tc main_v29) := by
  after_results_simp

/-! ## The second aggregation stretch -/

/-- From the reference's sources, targets, weights and second projection, the stretch ends at the reference's second
    aggregate. -/
theorem aggregate2 (hs : X (Proc.devRef .tc main_v3) = Cert.ReferenceIdeal.ReadP.val_main_v3 (F := Ideal) x1) (hd : X (Proc.devRef .tc main_v6) = Cert.ReferenceIdeal.ReadP.val_main_v6 (F := Ideal) x1)
    (hn : X (Proc.devRef .tc main_v29) = Cert.ReferenceIdeal.ReadP.val_main_v29 (F := Ideal) x1) (hh : X (Proc.devRef .tc main_v45) = Cert.ReferenceIdeal.ReadP.val_main_v53 (F := Ideal) x0 x1 x2 x3 x4 x6) :
    after hostOps3 X (Proc.devRef .tc main_v58) = Cert.ReferenceIdeal.ReadP.val_main_v66 (F := Ideal) x0 x1 x2 x3 x4 x6 := by
  after_results_simp
  rw [hs, hd, hn, hh]
  rfl

/-- The stretch does not write this buffer. -/
theorem aggregate2_keeps_arg5 : after hostOps3 X (Proc.devRef .tc main_arg5) = X (Proc.devRef .tc main_arg5) := by
  after_results_simp

/-- The stretch does not write this buffer. -/
theorem aggregate2_keeps_arg6 : after hostOps3 X (Proc.devRef .tc main_arg6) = X (Proc.devRef .tc main_arg6) := by
  after_results_simp

end Cert.KernelIdeal.HostSide

end
-- ==== Proof.Product1.lean ====
/-
  The first dense projection. The region's grid has ten points; point t reads rows 5000 t … 5000 t + 4999 of the node
  features x [50000, 256] and the whole weight matrix W1 [256, 64], multiplies them on the matrix unit into a zero
  accumulator (after rounding both to bf16, which is the identity on extended reals) and writes rows 5000 t … of the
  output back. Entry (r, j) of a block product is the sum over k < 256 of the block's x[r, k] · W1[k, j]; the reference's
  whole product has the same sum at (5000 t + r, j). The ten blocks tile the output, so the array the region leaves is
  the reference's product, entry by entry. No law beyond reading both sums over the same index is used.
-/
import proofs.«162441_j60335700574378_1_alg».proof.Proof.Gen.KernelIdeal.Frame
import proofs.«162441_j60335700574378_1_alg».proof.Proof.RefReadP
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Product1

open Idealize.ShloMosaic Idealize.ShloMosaic.TcCoe Idealize.SL.Sem Idealize.ShloMosaic.ValueIdx Cert.KernelIdeal Cert.KernelIdeal.Gen
open Idealize.ShloMosaic.Pipeline (Dat)

/-! ## The block product at an index -/

theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (r, j) of a row block times the matrix: the sum over the 256 columns of the block's row r against the
    matrix's column j. The two roundings to bf16 on the way into the matrix unit are the identity on extended reals, and
    the accumulator the product starts from is zero. -/
theorem block_product_apply (x : Vec Ideal S5000x256 .f32) (w : Vec Ideal S256x64 .f32) (r : Fin 5000) (j : Fin 64) :
    k0_pay1 (F := Ideal) x w (ix2 r j) = ∑ k : Fin 256, x (ix2 r k) * w (ix2 k j) := by
  unfold k0_pay1
  show FloatOps.matmul (F := Ideal) dot_S5000x256_S256x64_S5000x64_1_0_0_1_n_n none (truncf (F := Ideal) .bf16 (x : FVec Ideal S5000x256 .f32) bitsLt_bf16_f32)
    (truncf (F := Ideal) .bf16 (w : FVec Ideal S256x64 .f32) bitsLt_bf16_f32) (constant (F := Ideal) S5000x64 .f32 0x00000000#32) (ix2 r j) = _
  refine (Ideal.matmul_constant_zero_apply dot_S5000x256_S256x64_S5000x64_1_0_0_1_n_n none _ _ (ix2 r j)).trans ?_
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 r j) ((contrEquiv1 dot_S5000x256_S256x64_S5000x64_1_0_0_1_n_n 256 rfl rfl).symm k) = ix2 r k := funext fun a => Fin.ext (by
    match a with
    | ⟨0, _⟩ => exact lhs_row _ _
    | ⟨1, _⟩ => exact (lhs_col _ _).trans hk)
  have er : dot_S5000x256_S256x64_S5000x64_1_0_0_1_n_n.rhsIdx (ix2 r j) ((contrEquiv1 dot_S5000x256_S256x64_S5000x64_1_0_0_1_n_n 256 rfl rfl).symm k) = ix2 k j := funext fun a => Fin.ext (by
    match a with
    | ⟨0, _⟩ => exact (rhs_row _ _).trans hk
    | ⟨1, _⟩ => exact rhs_col _ _)
  rw [el, er]
  rfl

/-! ## From the ten row blocks to the array -/

theorem hz : (![0, 0] : Fin 2 → Nat) = fun _ => 0 := funext fun a => by fin_cases a <;> rfl

/-- The printed index maps over the grid: point t takes row block t of the left operand and of the output, and the whole
    matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

/-- The left operand's block at point t, row r, column k is the array's entry (5000 t + r, k). -/
theorem left_block (t : Fin cfg0.N) (r : Fin 5000) (k : Fin 256) (i : S50000x256.Idx)
    (h0 : (i 0).val = t.val * 5000 + r.val) (h1 : (i 1).val = k.val) :
    iblk0 (F := Ideal) V c 0 t (ix2 r k) = V c main_arg0 i := by
  obtain ⟨e0, e1, -, -, -, -⟩ := idx_facts t
  show V c main_arg0 (((cfg0.win 0).blk t).view.emb (ix2 r k)) = V c main_arg0 i
  refine congrArg (V c main_arg0) (funext fun a => Fin.ext ?_)
  match a with
  | ⟨0, _⟩ => show win0_0.index t (0 : Fin 2) * 5000 + 1 * r.val = (i 0).val; rw [e0, h0]; omega
  | ⟨1, _⟩ => show win0_0.index t (1 : Fin 2) * 256 + 1 * k.val = (i 1).val; rw [e1, h1]; omega

/-- The matrix's block at every point is the whole matrix. -/
theorem right_block (t : Fin cfg0.N) (k : Fin 256) (j : Fin 64) (i : S256x64.Idx)
    (h0 : (i 0).val = k.val) (h1 : (i 1).val = j.val) :
    iblk0 (F := Ideal) V c 1 t (ix2 k j) = V c main_arg2 i := by
  obtain ⟨-, -, e2, e3, -, -⟩ := idx_facts t
  show V c main_arg2 (((cfg0.win 1).blk t).view.emb (ix2 k j)) = V c main_arg2 i
  refine congrArg (V c main_arg2) (funext fun a => Fin.ext ?_)
  match a with
  | ⟨0, _⟩ => show win0_1.index t (0 : Fin 2) * 256 + 1 * k.val = (i 0).val; rw [e2, h0]; omega
  | ⟨1, _⟩ => show win0_1.index t (1 : Fin 2) * 64 + 1 * j.val = (i 1).val; rw [e3, h1]; omega

/-- What point t writes back is row block t of ANY array G whose entry i is the sum, over the 256 inner indices k, of X
    at (row of i, k) times W at (k, column of i) — X and W the two arrays the region finds. -/
theorem flushed_eq (X : Vec Ideal S50000x256 .f32) (W : Vec Ideal S256x64 .f32) (G : Vec Ideal S50000x64 .f32)
    (L : S50000x64.Idx → Fin 256 → S50000x256.Idx) (R : S50000x64.Idx → Fin 256 → S256x64.Idx)
    (hL0 : ∀ i k, (L i k 0).val = (i 0).val) (hL1 : ∀ i k, (L i k 1).val = k.val)
    (hR0 : ∀ i k, (R i k 0).val = k.val) (hR1 : ∀ i k, (R i k 1).val = (i 1).val)
    (hx : V c main_arg0 = X) (hw : V c main_arg2 = W)
    (hG : ∀ i, G i = ∑ k : Fin 256, X (L i k) * W (R i k)) (t : Fin cfg0.N) :
    (dat0 (F := Ideal) V c).flushed 2 t = ((cfg0.win 2).blk t).view.read (Elt Ideal) G := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x64) hz]
  obtain ⟨-, -, -, -, e4, e5⟩ := idx_facts t
  funext y
  obtain ⟨r, j, rfl⟩ : ∃ (r : Fin 5000) (j : Fin 64), y = ix2 r j := ⟨y 0, y 1, eq_ix2 (n0 := 5000) (n1 := 64) y⟩
  show k0_pay1 (F := Ideal) (iblk0 (F := Ideal) V c 0 t) (iblk0 (F := Ideal) V c 1 t) (ix2 r j)
    = G (((cfg0.win 2).blk t).view.emb (ix2 r j))
  rw [hG]
  refine (block_product_apply _ _ r j).trans ?_
  have hr : r.val < 5000 := r.isLt
  have g0 : ((((cfg0.win 2).blk t).view.emb (ix2 r j)) 0).val = t.val * 5000 + r.val := by
    show win0_2.index t (0 : Fin 2) * 5000 + 1 * r.val = _; rw [e4]; omega
  have g1 : ((((cfg0.win 2).blk t).view.emb (ix2 r j)) 1).val = j.val := by
    show win0_2.index t (1 : Fin 2) * 64 + 1 * j.val = _; rw [e5]; omega
  generalize ((cfg0.win 2).blk t).view.emb (ix2 r j) = i at g0 g1 ⊢
  refine Finset.sum_congr rfl fun k _ => ?_
  have e1 : iblk0 (F := Ideal) V c 0 t (ix2 r k) = X (L i k) :=
    (left_block V c t r k (L i k) ((hL0 i k).trans g0) (hL1 i k)).trans (congrFun hx _)
  have e2 : iblk0 (F := Ideal) V c 1 t (ix2 k j) = W (R i k) :=
    (right_block V c t k j (R i k) (hR0 i k) ((hR1 i k).trans g1)).trans (congrFun hw _)
  rw [e1, e2]

/-- An index of the output array is in point t's block iff its row is among the block's 5000 rows. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row i of the output lies in the block of point i / 5000, and every point writes its block back. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  have hlt : (i 0).val / 5000 < grid0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    rw [e5]; omega

variable (x0 : (⟨Cert.ReferenceIdeal.S50000x256, .f32⟩ : BufTy).Contents (Elt Ideal)) (x1 : (⟨Cert.ReferenceIdeal.S2x1200000, .i32⟩ : BufTy).Contents (Elt Ideal))
    (x2 : (⟨Cert.ReferenceIdeal.S256x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x6 : (⟨Cert.ReferenceIdeal.S1, .f32⟩ : BufTy).Contents (Elt Ideal))

/-- The first region's output array after its ten write-backs is the reference's product of the node features with the first weight matrix, entry by entry: row i of the output lies in the block of point i / 5000, whose entries are the sums over the 256 input columns. -/
theorem region (hx : V c main_arg0 = x0) (hw : V c main_arg2 = x2) :
    (dat0 (F := Ideal) V c).arrAt 2 cfg0.N = Cert.ReferenceIdeal.ReadP.val_main_v30 (F := Ideal) x0 x2 :=
  (dat0 (F := Ideal) V c).arrAt_eq_of_cover 2 (Cert.ReferenceIdeal.ReadP.val_main_v30 (F := Ideal) x0 x2)
    (fun t _ => flushed_eq V c x0 x2 (Cert.ReferenceIdeal.ReadP.val_main_v30 (F := Ideal) x0 x2) Cert.ReferenceIdeal.ReadP.lidx_main_v30 Cert.ReferenceIdeal.ReadP.ridx_main_v30
      (fun _ _ => rfl) (fun _ _ => rfl) (fun _ _ => rfl) (fun _ _ => rfl) hx hw
      (fun i => Cert.ReferenceIdeal.ReadP.val_main_v30_apply x0 x2 i) t)
    cover

end Cert.KernelIdeal.Product1

end
-- ==== Proof.Activation1.lean ====
/-
  The first layer's epilogue: bias and PReLU. The region's grid has ten points; point t reads rows 5000 t … 5000 t + 4999
  of the first aggregate [50000, 64], the whole bias b1 [64] and the one-element slope a [1], and writes rows 5000 t … of the
  output back. Entry (r, j) of the block it writes is v if v ≥ 0 and a · v otherwise, where v = agg[r, j] + b1[j]: the bias is
  cast to one row and broadcast down the block's rows, the slope is extracted and broadcast to every entry. The reference
  computes the same expression at every entry (5000 t + r, j) of the whole array: its bias is broadcast to one row and then
  down all rows, its slope reshaped to a scalar and broadcast, its zero a broadcast constant. Both sides are the same
  function of agg[i, j], b1[j] and a[0], so nothing beyond reading each side at the entry is needed, and the ten blocks tile
  the output.
-/
import proofs.«162441_j60335700574378_1_alg».proof.Proof.Gen.KernelIdeal.Frame
import proofs.«162441_j60335700574378_1_alg».proof.Proof.RefReadP
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Activation1

open Idealize.ShloMosaic Idealize.ShloMosaic.TcCoe Idealize.SL.Sem Idealize.ShloMosaic.ValueIdx Cert.KernelIdeal Cert.KernelIdeal.Gen
open Idealize.ShloMosaic.Pipeline (Dat)

/-! ## The body's value at an entry -/

/-- The activation at one entry: v where v ≥ 0, slope · v elsewhere. -/
def prelu (s v : Ideal .f32) : Ideal .f32 :=
  Scalar.select (FloatOps.cmpf (F := Ideal) (φ := .f32) .oge v (FloatOps.ofBits (F := Ideal) .f32 0x00000000#32)) v
    (FloatOps.mulf (F := Ideal) (φ := .f32) s v)

/-- The bias as the body spells it (cast to one row, broadcast down the rows) is the bias at the entry's column. -/
theorem bias_apply (b : FVec Ideal S64 .f32) (r : Fin 5000) (j : Fin 64) :
    broadcastTo S5000x64 (shapeCast S1x64 b shapeCasts_S64_S1x64) broadcasts_S1x64_S5000x64 (ix2 r j) = b (ix1 j) :=
  (broadcastTo_1b_ab_apply (shapeCast S1x64 b shapeCasts_S64_S1x64) broadcasts_S1x64_S5000x64 r j).trans
    (shapeCast_a_1a_apply b shapeCasts_S64_S1x64 0 j)

/-- Entry (r, j) of the body's result is the activation of the entry plus the column's bias, at the extracted slope. -/
theorem activation_apply (x : FVec Ideal S5000x64 .f32) (b : FVec Ideal S64 .f32) (a : FVec Ideal S1 .f32) (r : Fin 5000) (j : Fin 64) :
    k1_pay1 (F := Ideal) x b a (ix2 r j) = prelu (extractAt ![0] a inpos_S1_p0) (FloatOps.addf (F := Ideal) (φ := .f32) (x (ix2 r j)) (b (ix1 j))) := by
  unfold k1_pay1
  simp only [shapeCast_self]
  show prelu (extractAt ![0] a inpos_S1_p0)
    (FloatOps.addf (F := Ideal) (φ := .f32) (x (ix2 r j)) (broadcastTo S5000x64 (shapeCast S1x64 b shapeCasts_S64_S1x64) broadcasts_S1x64_S5000x64 (ix2 r j))) = _
  rw [bias_apply b r j]

/-! ## The blocks the body reads -/

theorem hz : (![0, 0] : Fin 2 → Nat) = fun _ => 0 := funext fun a => by fin_cases a <;> rfl
theorem hz1 : (![0] : Fin 1 → Nat) = fun _ => 0 := funext fun a => by fin_cases a <;> rfl

/-- The printed index maps over the grid: point t takes row block t of the aggregate and of the output, and the whole
    bias and slope. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- A one-element array has one index. -/
theorem one_idx (k k' : S1.Idx) : k = k' := funext fun d => Fin.ext (by
  match d with
  | ⟨0, _⟩ =>
    have h1 : (k (0 : Fin 1)).val < 1 := (k (0 : Fin 1)).isLt
    have h2 : (k' (0 : Fin 1)).val < 1 := (k' (0 : Fin 1)).isLt
    show (k (0 : Fin 1)).val = (k' (0 : Fin 1)).val
    omega)

variable (V : (c : Dev nD) → (b : Ref sig .tc) → Buf (Elt Ideal) ((c : Thread nD τ).loc b)) (c : Dev nD)

/-- The aggregate's block at point t, row r, column j is the array's entry (5000 t + r, j). -/
theorem row_block (t : Fin cfg1.N) (r : Fin 5000) (j : Fin 64) (i : S50000x64.Idx)
    (h0 : (i 0).val = t.val * 5000 + r.val) (h1 : (i 1).val = j.val) :
    iblk1 (F := Ideal) V c 0 t (ix2 r j) = V c main_v43 i := by
  obtain ⟨e0, e1, -, -, -, -⟩ := idx_facts t
  show V c main_v43 (((cfg1.win 0).blk t).view.emb (ix2 r j)) = V c main_v43 i
  refine congrArg (V c main_v43) (funext fun a => Fin.ext ?_)
  match a with
  | ⟨0, _⟩ => show win1_0.index t (0 : Fin 2) * 5000 + 1 * r.val = (i 0).val; rw [e0, h0]; omega
  | ⟨1, _⟩ => show win1_0.index t (1 : Fin 2) * 64 + 1 * j.val = (i 1).val; rw [e1, h1]; omega

/-- The bias's block at every point is the whole bias. -/
theorem bias_block (t : Fin cfg1.N) (j : Fin 64) (i : S64.Idx) (h0 : (i 0).val = j.val) :
    iblk1 (F := Ideal) V c 1 t (ix1 j) = V c main_arg3 i := by
  obtain ⟨-, -, e2, -, -, -⟩ := idx_facts t
  show V c main_arg3 (((cfg1.win 1).blk t).view.emb (ix1 j)) = V c main_arg3 i
  refine congrArg (V c main_arg3) (funext fun a => Fin.ext ?_)
  match a with
  | ⟨0, _⟩ => show win1_1.index t (0 : Fin 1) * 64 + 1 * j.val = (i 0).val; rw [e2, h0]; omega

/-- The slope the body extracts from its one-element block is the slope array's one entry, which is also what the
    reference's reshape of that array to a scalar holds. -/
theorem slope_eq (t : Fin cfg1.N) (x6 : (⟨Cert.ReferenceIdeal.S1, .f32⟩ : BufTy).Contents (Elt Ideal)) (ha : V c main_arg6 = x6)
    (i : Cert.ReferenceIdeal.S_.Idx) :
    extractAt ![0] (iblk1 (F := Ideal) V c 2 t) inpos_S1_p0 = Cert.ReferenceIdeal.ReadP.val_main_v49 (F := Ideal) x6 i := by
  subst ha
  show V c main_arg6 _ = V c main_arg6 _
  exact congrArg (V c main_arg6) (one_idx _ _)

/-! ## From the ten row blocks to the array -/

/-- What point t writes back is row block t of ANY array G whose entry i is the activation, at slope s, of A at i plus B at
    i's column — A the aggregate and B the bias as the region finds them, s the slope the body extracts. -/
theorem flushed_eq (A : FVec Ideal S50000x64 .f32) (B : FVec Ideal S64 .f32) (s : Ideal .f32) (G : FVec Ideal S50000x64 .f32)
    (bidx : S50000x64.Idx → S64.Idx) (hbidx : ∀ i, (bidx i 0).val = (i 1).val)
    (hagg : V c main_v43 = A) (hb : V c main_arg3 = B)
    (hs : ∀ t : Fin cfg1.N, extractAt ![0] (iblk1 (F := Ideal) V c 2 t) inpos_S1_p0 = s)
    (hG : ∀ i, G i = prelu s (FloatOps.addf (F := Ideal) (φ := .f32) (A i) (B (bidx i)))) (t : Fin cfg1.N) :
    (dat1 (F := Ideal) V c).flushed 3 t = ((cfg1.win 3).blk t).view.read (Elt Ideal) G := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S64) hz1, View.ld_unit_zero (S := S1) hz1]
  obtain ⟨-, -, -, -, e4, e5⟩ := idx_facts t
  funext y
  obtain ⟨r, j, rfl⟩ : ∃ (r : Fin 5000) (j : Fin 64), y = ix2 r j := ⟨y 0, y 1, eq_ix2 (n0 := 5000) (n1 := 64) y⟩
  show k1_pay1 (F := Ideal) (iblk1 (F := Ideal) V c 0 t) (iblk1 (F := Ideal) V c 1 t) (iblk1 (F := Ideal) V c 2 t) (ix2 r j)
    = G (((cfg1.win 3).blk t).view.emb (ix2 r j))
  rw [hG]
  refine (activation_apply _ _ _ r j).trans ?_
  have hr : r.val < 5000 := r.isLt
  have g0 : ((((cfg1.win 3).blk t).view.emb (ix2 r j)) 0).val = t.val * 5000 + r.val := by
    show win1_3.index t (0 : Fin 2) * 5000 + 1 * r.val = _; rw [e4]; omega
  have g1 : ((((cfg1.win 3).blk t).view.emb (ix2 r j)) 1).val = j.val := by
    show win1_3.index t (1 : Fin 2) * 64 + 1 * j.val = _; rw [e5]; omega
  generalize ((cfg1.win 3).blk t).view.emb (ix2 r j) = i at g0 g1 ⊢
  have e1 : iblk1 (F := Ideal) V c 0 t (ix2 r j) = A i := (row_block V c t r j i g0 g1).trans (congrFun hagg i)
  have e2 : iblk1 (F := Ideal) V c 1 t (ix1 j) = B (bidx i) := (bias_block V c t j (bidx i) ((hbidx i).trans g1)).trans (congrFun hb _)
  rw [hs t, e1, e2]

/-- An index of the output array is in point t's block iff its row is among the block's 5000 rows. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v44).slice (win1_3.rect t)).set ↔ _
  rw [View.set_slice_whole, Rect.mem_set_unit]
  exact Iff.rfl

/-- Row i of the output lies in the block of point i / 5000, and every point writes its block back. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  have hlt : (i 0).val / 5000 < grid1.N := by rw [hN]; omega
  obtain ⟨-, -, -, -, e4, e5⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    rw [e5]; omega

variable (x0 : (⟨Cert.ReferenceIdeal.S50000x256, .f32⟩ : BufTy).Contents (Elt Ideal)) (x1 : (⟨Cert.ReferenceIdeal.S2x1200000, .i32⟩ : BufTy).Contents (Elt Ideal))
    (x2 : (⟨Cert.ReferenceIdeal.S256x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x6 : (⟨Cert.ReferenceIdeal.S1, .f32⟩ : BufTy).Contents (Elt Ideal))

/-- The reference's first-layer activation at an entry: the activation, at the slope array's one entry, of the aggregate
    plus the column's bias. -/
theorem reference_apply (i : Cert.ReferenceIdeal.S50000x64.Idx) :
    Cert.ReferenceIdeal.ReadP.val_main_v52 (F := Ideal) x0 x1 x2 x3 x6 i
      = prelu (Cert.ReferenceIdeal.ReadP.val_main_v49 (F := Ideal) x6 (fun a => a.elim0))
          (FloatOps.addf (F := Ideal) (φ := .f32) (Cert.ReferenceIdeal.ReadP.val_main_v43 (F := Ideal) x0 x1 x2 i) (x3 (Cert.ReferenceIdeal.ReadP.idx_main_v44 (Cert.ReferenceIdeal.ReadP.idx_main_v45 i)))) := by
  rw [Cert.ReferenceIdeal.ReadP.val_main_v52_apply, Cert.ReferenceIdeal.ReadP.val_main_v48_apply, Cert.ReferenceIdeal.ReadP.val_main_v51_apply, Cert.ReferenceIdeal.ReadP.val_main_v46_apply, Cert.ReferenceIdeal.ReadP.val_main_v47_apply,
    Cert.ReferenceIdeal.ReadP.val_main_cst_9_apply, Cert.ReferenceIdeal.ReadP.val_main_v50_apply, Cert.ReferenceIdeal.ReadP.val_main_v45_apply, Cert.ReferenceIdeal.ReadP.val_main_v44_apply]
  generalize Cert.ReferenceIdeal.ReadP.val_main_v43 (F := Ideal) x0 x1 x2 i = u
  rfl

/-- The second region's output array after its ten write-backs is the reference's first-layer activation, entry by entry. -/
theorem region (hagg : V c main_v43 = Cert.ReferenceIdeal.ReadP.val_main_v43 (F := Ideal) x0 x1 x2) (hb : V c main_arg3 = x3) (ha : V c main_arg6 = x6) :
    (dat1 (F := Ideal) V c).arrAt 3 cfg1.N = Cert.ReferenceIdeal.ReadP.val_main_v52 (F := Ideal) x0 x1 x2 x3 x6 :=
  (dat1 (F := Ideal) V c).arrAt_eq_of_cover 3 (Cert.ReferenceIdeal.ReadP.val_main_v52 (F := Ideal) x0 x1 x2 x3 x6)
    (fun t _ => flushed_eq V c (Cert.ReferenceIdeal.ReadP.val_main_v43 (F := Ideal) x0 x1 x2) x3 (Cert.ReferenceIdeal.ReadP.val_main_v49 (F := Ideal) x6 (fun a => a.elim0))
      (Cert.ReferenceIdeal.ReadP.val_main_v52 (F := Ideal) x0 x1 x2 x3 x6) (fun i => Cert.ReferenceIdeal.ReadP.idx_main_v44 (Cert.ReferenceIdeal.ReadP.idx_main_v45 i)) (fun _ => rfl)
      hagg hb (fun t => slope_eq V c t x6 ha _) (fun i => reference_apply x0 x1 x2 x3 x6 i) t)
    cover

end Cert.KernelIdeal.Activation1

end
-- ==== Proof.Product2.lean ====
/-
  The second dense projection. The region's grid has ten points; point t reads rows 5000 t … 5000 t + 4999 of the first
  layer's activations h1 [50000, 64] (passed through a shape cast to its own shape, the identity) and the whole weight
  matrix W2 [64, 64], multiplies them on the matrix unit into a zero accumulator (after rounding both to bf16, the identity
  on extended reals) and writes rows 5000 t … of the output back. Entry (r, j) of a block product is the sum over k < 64 of
  the block's h1[r, k] · W2[k, j]; the reference's whole product has the same sum at (5000 t + r, j). The ten blocks tile
  the output, so the array the region leaves is the reference's product, entry by entry.
-/
import proofs.«162441_j60335700574378_1_alg».proof.Proof.Gen.KernelIdeal.Frame
import proofs.«162441_j60335700574378_1_alg».proof.Proof.RefReadP
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Product2

open Idealize.ShloMosaic Idealize.ShloMosaic.TcCoe Idealize.SL.Sem Idealize.ShloMosaic.ValueIdx Cert.KernelIdeal Cert.KernelIdeal.Gen
open Idealize.ShloMosaic.Pipeline (Dat)

/-! ## The block product at an index -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (r, j) of a row block times the matrix: the sum over the 64 columns of the block's row r against the
    matrix's column j. The two roundings to bf16 on the way into the matrix unit are the identity on extended reals, and
    the accumulator the product starts from is zero. -/
theorem block_product_apply (x : Vec Ideal S5000x64 .f32) (w : Vec Ideal S64x64 .f32) (r : Fin 5000) (j : Fin 64) :
    k2_pay1 (F := Ideal) x w (ix2 r j) = ∑ k : Fin 64, x (ix2 r k) * w (ix2 k j) := by
  unfold k2_pay1
  simp only [shapeCast_self]
  show FloatOps.matmul (F := Ideal) dot_S5000x64_S64x64_S5000x64_1_0_0_1_n_n none (truncf (F := Ideal) .bf16 (x : FVec Ideal S5000x64 .f32) bitsLt_bf16_f32)
    (truncf (F := Ideal) .bf16 (w : FVec Ideal S64x64 .f32) bitsLt_bf16_f32) (constant (F := Ideal) S5000x64 .f32 0x00000000#32) (ix2 r j) = _
  refine (Ideal.matmul_constant_zero_apply dot_S5000x64_S64x64_S5000x64_1_0_0_1_n_n none _ _ (ix2 r j)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (rhs_row _ _).trans hk
    | ⟨1, _⟩ => exact rhs_col _ _)
  rw [el, er]
  rfl

/-! ## From the ten row blocks to the array -/

theorem hz : (![0, 0] : Fin 2 → Nat) = fun _ => 0 := funext fun a => by fin_cases a <;> rfl

/-- The printed index maps over the grid: point t takes row block t of the left operand and of the output, and the whole
    matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b)) (c : Dev nD)

/-- The left operand's block at point t, row r, column k is the array's entry (5000 t + r, k). -/
theorem left_block (t : Fin cfg2.N) (r : Fin 5000) (k : Fin 64) (i : S50000x64.Idx)
    (h0 : (i 0).val = t.val * 5000 + r.val) (h1 : (i 1).val = k.val) :
    iblk2 (F := Ideal) V c 0 t (ix2 r k) = V c main_v44 i := by
  obtain ⟨e0, e1, -, -, -, -⟩ := idx_facts t
  show V c main_v44 (((cfg2.win 0).blk t).view.emb (ix2 r k)) = V c main_v44 i
  refine congrArg (V c main_v44) (funext fun a => Fin.ext ?_)
  match a with
  | ⟨0, _⟩ => show win2_0.index t (0 : Fin 2) * 5000 + 1 * r.val = (i 0).val; rw [e0, h0]; omega
  | ⟨1, _⟩ => show win2_0.index t (1 : Fin 2) * 64 + 1 * k.val = (i 1).val; rw [e1, h1]; omega

/-- The matrix's block at every point is the whole matrix. -/
theorem right_block (t : Fin cfg2.N) (k : Fin 64) (j : Fin 64) (i : S64x64.Idx)
    (h0 : (i 0).val = k.val) (h1 : (i 1).val = j.val) :
    iblk2 (F := Ideal) V c 1 t (ix2 k j) = V c main_arg4 i := by
  obtain ⟨-, -, e2, e3, -, -⟩ := idx_facts t
  show V c main_arg4 (((cfg2.win 1).blk t).view.emb (ix2 k j)) = V c main_arg4 i
  refine congrArg (V c main_arg4) (funext fun a => Fin.ext ?_)
  match a with
  | ⟨0, _⟩ => show win2_1.index t (0 : Fin 2) * 64 + 1 * k.val = (i 0).val; rw [e2, h0]; omega
  | ⟨1, _⟩ => show win2_1.index t (1 : Fin 2) * 64 + 1 * j.val = (i 1).val; rw [e3, h1]; omega

/-- What point t writes back is row block t of ANY array G whose entry i is the sum, over the 64 inner indices k, of X
    at (row of i, k) times W at (k, column of i) — X and W the two arrays the region finds. -/
theorem flushed_eq (X : Vec Ideal S50000x64 .f32) (W : Vec Ideal S64x64 .f32) (G : Vec Ideal S50000x64 .f32)
    (L : S50000x64.Idx → Fin 64 → S50000x64.Idx) (R : S50000x64.Idx → Fin 64 → S64x64.Idx)
    (hL0 : ∀ i k, (L i k 0).val = (i 0).val) (hL1 : ∀ i k, (L i k 1).val = k.val)
    (hR0 : ∀ i k, (R i k 0).val = k.val) (hR1 : ∀ i k, (R i k 1).val = (i 1).val)
    (hx : V c main_v44 = X) (hw : V c main_arg4 = W)
    (hG : ∀ i, G i = ∑ k : Fin 64, X (L i k) * W (R i k)) (t : Fin cfg2.N) :
    (dat2 (F := Ideal) V c).flushed 2 t = ((cfg2.win 2).blk t).view.read (Elt Ideal) G := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S64x64) hz]
  obtain ⟨-, -, -, -, e4, e5⟩ := idx_facts t
  funext y
  obtain ⟨r, j, rfl⟩ : ∃ (r : Fin 5000) (j : Fin 64), y = ix2 r j := ⟨y 0, y 1, eq_ix2 (n0 := 5000) (n1 := 64) y⟩
  show k2_pay1 (F := Ideal) (iblk2 (F := Ideal) V c 0 t) (iblk2 (F := Ideal) V c 1 t) (ix2 r j)
    = G (((cfg2.win 2).blk t).view.emb (ix2 r j))
  rw [hG]
  refine (block_product_apply _ _ r j).trans ?_
  have hr : r.val < 5000 := r.isLt
  have g0 : ((((cfg2.win 2).blk t).view.emb (ix2 r j)) 0).val = t.val * 5000 + r.val := by
    show win2_2.index t (0 : Fin 2) * 5000 + 1 * r.val = _; rw [e4]; omega
  have g1 : ((((cfg2.win 2).blk t).view.emb (ix2 r j)) 1).val = j.val := by
    show win2_2.index t (1 : Fin 2) * 64 + 1 * j.val = _; rw [e5]; omega
  generalize ((cfg2.win 2).blk t).view.emb (ix2 r j) = i at g0 g1 ⊢
  refine Finset.sum_congr rfl fun k _ => ?_
  have e1 : iblk2 (F := Ideal) V c 0 t (ix2 r k) = X (L i k) :=
    (left_block V c t r k (L i k) ((hL0 i k).trans g0) (hL1 i k)).trans (congrFun hx _)
  have e2 : iblk2 (F := Ideal) V c 1 t (ix2 k j) = W (R i k) :=
    (right_block V c t k j (R i k) (hR0 i k) ((hR1 i k).trans g1)).trans (congrFun hw _)
  rw [e1, e2]

/-- An index of the output array is in point t's block iff its row is among the block's 5000 rows. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Row i of the output lies in the block of point i / 5000, and every point writes its block back. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 10 := N_2
  have hlt : (i 0).val / 5000 < grid2.N := by rw [hN]; omega
  obtain ⟨-, -, -, -, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    rw [e5]; omega

variable (x0 : (⟨Cert.ReferenceIdeal.S50000x256, .f32⟩ : BufTy).Contents (Elt Ideal)) (x1 : (⟨Cert.ReferenceIdeal.S2x1200000, .i32⟩ : BufTy).Contents (Elt Ideal))
    (x2 : (⟨Cert.ReferenceIdeal.S256x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x6 : (⟨Cert.ReferenceIdeal.S1, .f32⟩ : BufTy).Contents (Elt Ideal))

/-- The third region's output array after its ten write-backs is the reference's product of the first layer's activations with the second weight matrix, entry by entry. -/
theorem region (hh : V c main_v44 = Cert.ReferenceIdeal.ReadP.val_main_v52 (F := Ideal) x0 x1 x2 x3 x6) (hw : V c main_arg4 = x4) :
    (dat2 (F := Ideal) V c).arrAt 2 cfg2.N = Cert.ReferenceIdeal.ReadP.val_main_v53 (F := Ideal) x0 x1 x2 x3 x4 x6 :=
  (dat2 (F := Ideal) V c).arrAt_eq_of_cover 2 (Cert.ReferenceIdeal.ReadP.val_main_v53 (F := Ideal) x0 x1 x2 x3 x4 x6)
    (fun t _ => flushed_eq V c (Cert.ReferenceIdeal.ReadP.val_main_v52 (F := Ideal) x0 x1 x2 x3 x6) x4 (Cert.ReferenceIdeal.ReadP.val_main_v53 (F := Ideal) x0 x1 x2 x3 x4 x6) Cert.ReferenceIdeal.ReadP.lidx_main_v53 Cert.ReferenceIdeal.ReadP.ridx_main_v53
      (fun _ _ => rfl) (fun _ _ => rfl) (fun _ _ => rfl) (fun _ _ => rfl) hh hw
      (fun i => Cert.ReferenceIdeal.ReadP.val_main_v53_apply x0 x1 x2 x3 x4 x6 i) t)
    cover

end Cert.KernelIdeal.Product2

end
-- ==== Proof.Activation3.lean ====
/-
  The last epilogue: bias, PReLU and the row-wise log-softmax. The region's grid has ten points; point t reads rows
  5000 t … 5000 t + 4999 of the second aggregate [50000, 64], the whole bias b2 [64] and the one-element slope a [1], and writes
  rows 5000 t … of the result back. On its block the body first forms the activations h[r, k] = prelu(a, agg[r, k] + b2[k])
  exactly as the first epilogue does, then, row by row: the maximum M[r] of the row (a lane maximum from −∞, kept as a column
  and broadcast back along the row), the shifted entries h[r, k] − M[r], the sum S[r] of their exponentials (a lane sum from
  zero, kept as a column), and the result (h[r, j] − M[r]) − log S[r].

  The reference computes the same on the whole [50000, 64] array: the row maximum by a reduce with maximum from −∞ followed
  by one more maximum against −∞ (which changes nothing: the fold already starts at −∞), the same subtraction, exponential,
  row sum from zero (zero plus the sum is the sum) and logarithm, each broadcast back along the row.

  Row R = 5000 t + r of the array is row r of block t, and every quantity above depends on that one row only, so entry
  (r, j) of the block the body writes is the reference's entry (R, j): both are the log-softmax of the same row of
  activations at column j. Only the commutativity and associativity of max and + inside the two reductions are used (to read
  each reduction as a fold or sum over the row's 64 entries); no distributivity or cancellation, hence no finiteness.
-/
import proofs.«162441_j60335700574378_1_alg».proof.Proof.Gen.KernelIdeal.Frame
import proofs.«162441_j60335700574378_1_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import proofs.«162441_j60335700574378_1_alg».proof.Proof.Activation1

noncomputable section

namespace Cert.KernelIdeal.Activation3

open Idealize.ShloMosaic Idealize.ShloMosaic.TcCoe Idealize.SL.Sem Idealize.ShloMosaic.ValueIdx Cert.KernelIdeal Cert.KernelIdeal.Gen
open Idealize.ShloMosaic.Pipeline (Dat)

/-! ## A fold of max from a start value -/

/-- The start value is below the fold. -/
theorem le_fold_max_start {α ι : Type} [LinearOrder α] (b : α) (f : ι → α) (s : Finset ι) : b ≤ s.fold max b f :=
  (Finset.le_fold_max b).mpr (Or.inl le_rfl)

/-- So one more maximum against the start value changes nothing. -/
theorem max_start_fold_max {α ι : Type} [LinearOrder α] (b : α) (f : ι → α) (s : Finset ι) : max b (s.fold max b f) = s.fold max b f :=
  max_eq_right (le_fold_max_start b f s)

/-! ## The log-softmax of a row -/

/-- A row's maximum: the fold of max, from −∞, over its 64 entries. -/
def rowmax (row : Fin 64 → EReal) : EReal :=
  (Finset.univ : Finset (Fin 64)).fold max (Ideal.ofBits .f32 0xFF800000#32) row

/-- The log-softmax of a row at column j: the entry minus the row's maximum, minus the logarithm of the sum over the row of
    the exponentials of the entries minus the maximum. -/
def logsoftmax (row : Fin 64 → EReal) (j : Fin 64) : EReal :=
  (row j - rowmax row) - Ideal.log (∑ k : Fin 64, Ideal.exp (row k - rowmax row))

/-! ## Keepdims columns: a per-row value as a one-column array, and a one-column array broadcast along the rows -/

/-- An `[a]` array cast to `[a, 1]` reads, at `(p, u)`, the operand at `p`. -/
theorem col_cast_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's row `p`. -/
theorem col_broadcast_apply {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-! ## The two lane reductions of a [5000, 64] block, read at a row -/

/-- The lane maximum at row r is the row's maximum. -/
theorem lane_max (h : FVec Ideal S5000x64 .f32) (r : Fin 5000) :
    multiReduction .maximumf [1] S5000 h 0xFF800000#32 reduces_S5000x64_S5000 (.inl rfl) rfl (ix1 r) = rowmax (fun k => h (ix2 r k)) := by
  refine (Ideal.multiReduction_maximumf_single h 0xFF800000#32 reduces_S5000x64_S5000 (.inl rfl) rfl (ix1 r)).trans ?_
  unfold rowmax
  refine congrArg (fun f => (Finset.univ : Finset (Fin 64)).fold max (Ideal.ofBits .f32 0xFF800000#32) f) (funext fun k => ?_)
  exact congrArg h (funext fun a => Fin.ext (by match a with | ⟨0, _⟩ => rfl | ⟨1, _⟩ => rfl))

/-- The lane sum at row r is the sum over the row. -/
theorem lane_sum (h : FVec Ideal S5000x64 .f32) (r : Fin 5000) :
    multiReduction .add [1] S5000 h 0x00000000#32 reduces_S5000x64_S5000 (.inl rfl) rfl (ix1 r) = ∑ k : Fin 64, h (ix2 r k) := by
  refine (Ideal.multiReduction_add_single h 0x00000000#32 reduces_S5000x64_S5000 (.inl rfl) rfl (ix1 r)).trans ?_
  exact Finset.sum_congr rfl fun k _ => congrArg h (funext fun a => Fin.ext (by match a with | ⟨0, _⟩ => rfl | ⟨1, _⟩ => rfl))

/-! ## The body's log-softmax chain on a block -/

/-- The chain the body applies to the activated block: lane maximum, kept as a column and broadcast; subtract; exponentiate;
    lane sum, kept as a column; logarithm; broadcast; subtract. -/
def lsmBlock (h : FVec Ideal S5000x64 .f32) : FVec Ideal S5000x64 .f32 :=
  subf (subf h (broadcastTo S5000x64 (shapeCast S5000x1 (multiReduction .maximumf [1] S5000 h 0xFF800000#32 reduces_S5000x64_S5000 (.inl rfl) rfl) shapeCasts_S5000_S5000x1) broadcasts_S5000x1_S5000x64))
    (broadcastTo S5000x64 (log (shapeCast S5000x1 (multiReduction .add [1] S5000
      (exp (subf h (broadcastTo S5000x64 (shapeCast S5000x1 (multiReduction .maximumf [1] S5000 h 0xFF800000#32 reduces_S5000x64_S5000 (.inl rfl) rfl) shapeCasts_S5000_S5000x1) broadcasts_S5000x1_S5000x64)))
      0x00000000#32 reduces_S5000x64_S5000 (.inl rfl) rfl) shapeCasts_S5000_S5000x1)) broadcasts_S5000x1_S5000x64)

/-- The row maximum kept as a column and broadcast back reads, at (r, j), the row's maximum. -/
theorem max_col_apply (h : FVec Ideal S5000x64 .f32) (r : Fin 5000) (j : Fin 64) :
    broadcastTo S5000x64 (shapeCast S5000x1 (multiReduction .maximumf [1] S5000 h 0xFF800000#32 reduces_S5000x64_S5000 (.inl rfl) rfl) shapeCasts_S5000_S5000x1) broadcasts_S5000x1_S5000x64 (ix2 r j)
      = rowmax (fun k => h (ix2 r k)) :=
  ((col_broadcast_apply (by decide) _ broadcasts_S5000x1_S5000x64 r j).trans (col_cast_apply _ shapeCasts_S5000_S5000x1 r 0)).trans (lane_max h r)

/-- Entry (r, j) of the chain's result is the log-softmax of row r at column j. -/
theorem lsmBlock_apply (h : FVec Ideal S5000x64 .f32) (r : Fin 5000) (j : Fin 64) :
    lsmBlock h (ix2 r j) = logsoftmax (fun k => h (ix2 r k)) j := by
  unfold lsmBlock logsoftmax
  show (h (ix2 r j) - broadcastTo S5000x64 (shapeCast S5000x1 (multiReduction .maximumf [1] S5000 h 0xFF800000#32 reduces_S5000x64_S5000 (.inl rfl) rfl) shapeCasts_S5000_S5000x1) broadcasts_S5000x1_S5000x64 (ix2 r j))
      - broadcastTo S5000x64 (log (shapeCast S5000x1 (multiReduction .add [1] S5000
          (exp (subf h (broadcastTo S5000x64 (shapeCast S5000x1 (multiReduction .maximumf [1] S5000 h 0xFF800000#32 reduces_S5000x64_S5000 (.inl rfl) rfl) shapeCasts_S5000_S5000x1) broadcasts_S5000x1_S5000x64)))
          0x00000000#32 reduces_S5000x64_S5000 (.inl rfl) rfl) shapeCasts_S5000_S5000x1)) broadcasts_S5000x1_S5000x64 (ix2 r j) = _
  rw [max_col_apply h r j, col_broadcast_apply (by decide) _ broadcasts_S5000x1_S5000x64 r j]
  show (h (ix2 r j) - rowmax fun k => h (ix2 r k))
      - Ideal.log (shapeCast S5000x1 (multiReduction .add [1] S5000
          (exp (subf h (broadcastTo S5000x64 (shapeCast S5000x1 (multiReduction .maximumf [1] S5000 h 0xFF800000#32 reduces_S5000x64_S5000 (.inl rfl) rfl) shapeCasts_S5000_S5000x1) broadcasts_S5000x1_S5000x64)))
          0x00000000#32 reduces_S5000x64_S5000 (.inl rfl) rfl) shapeCasts_S5000_S5000x1 (ix2 r (0 : Fin 1))) = _
  rw [col_cast_apply _ shapeCasts_S5000_S5000x1 r 0, lane_sum]
  refine congrArg (fun s => (h (ix2 r j) - rowmax fun k => h (ix2 r k)) - Ideal.log s) (Finset.sum_congr rfl fun k _ => ?_)
  show Ideal.exp (h (ix2 r k) - broadcastTo S5000x64 (shapeCast S5000x1 (multiReduction .maximumf [1] S5000 h 0xFF800000#32 reduces_S5000x64_S5000 (.inl rfl) rfl) shapeCasts_S5000_S5000x1) broadcasts_S5000x1_S5000x64 (ix2 r k)) = _
  rw [max_col_apply h r k]

/-! ## The body's value at an entry -/

/-- The body is the first epilogue's body followed by the log-softmax chain. -/
theorem payload_eq (x : FVec Ideal S5000x64 .f32) (b : FVec Ideal S64 .f32) (a : FVec Ideal S1 .f32) :
    k3_pay1 (F := Ideal) x b a = lsmBlock (k1_pay1 (F := Ideal) x b a) := rfl

/-- Entry (r, j) of the body's result is the log-softmax, at column j, of row r of the activations. -/
theorem payload_apply (x : FVec Ideal S5000x64 .f32) (b : FVec Ideal S64 .f32) (a : FVec Ideal S1 .f32) (r : Fin 5000) (j : Fin 64) :
    k3_pay1 (F := Ideal) x b a (ix2 r j)
      = logsoftmax (fun k => Cert.KernelIdeal.Activation1.prelu (extractAt ![0] a inpos_S1_p0) (FloatOps.addf (F := Ideal) (φ := .f32) (x (ix2 r k)) (b (ix1 k)))) j :=
  (congrFun (payload_eq x b a) (ix2 r j)).trans ((lsmBlock_apply (k1_pay1 (F := Ideal) x b a) r j).trans
    (congrArg (fun row => logsoftmax row j) (funext fun k => Cert.KernelIdeal.Activation1.activation_apply x b a r k)))

/-! ## The blocks the body reads -/

theorem hz : (![0, 0] : Fin 2 → Nat) = fun _ => 0 := funext fun a => by fin_cases a <;> rfl
theorem hz1 : (![0] : Fin 1 → Nat) = fun _ => 0 := funext fun a => by fin_cases a <;> rfl

/-- The printed index maps over the grid: point t takes row block t of the aggregate and of the output, and the whole
    bias and slope. -/
theorem idx_facts : ∀ t : Fin cfg3.N, win3_0.index t (0 : Fin 2) = t.val ∧ win3_0.index t (1 : Fin 2) = 0
    ∧ win3_1.index t (0 : Fin 1) = 0 ∧ win3_2.index t (0 : Fin 1) = 0
    ∧ win3_3.index t (0 : Fin 2) = t.val ∧ win3_3.index t (1 : Fin 2) = 0 :=
  (by decide +kernel : ∀ t : Fin grid3.N, _)

/-- A one-element array has one index. -/
theorem one_idx (k k' : S1.Idx) : k = k' := funext fun d => Fin.ext (by
  match d with
  | ⟨0, _⟩ =>
    have h1 : (k (0 : Fin 1)).val < 1 := (k (0 : Fin 1)).isLt
    have h2 : (k' (0 : Fin 1)).val < 1 := (k' (0 : Fin 1)).isLt
    show (k (0 : Fin 1)).val = (k' (0 : Fin 1)).val
    omega)

variable (V : (c : Dev nD) → (b : Ref sig .tc) → Buf (Elt Ideal) ((c : Thread nD τ).loc b)) (c : Dev nD)

/-- The aggregate's block at point t, row r, column j is the array's entry (5000 t + r, j). -/
theorem row_block (t : Fin cfg3.N) (r : Fin 5000) (j : Fin 64) (i : S50000x64.Idx)
    (h0 : (i 0).val = t.val * 5000 + r.val) (h1 : (i 1).val = j.val) :
    iblk3 (F := Ideal) V c 0 t (ix2 r j) = V c main_v58 i := by
  obtain ⟨e0, e1, -, -, -, -⟩ := idx_facts t
  show V c main_v58 (((cfg3.win 0).blk t).view.emb (ix2 r j)) = V c main_v58 i
  refine congrArg (V c main_v58) (funext fun a => Fin.ext ?_)
  match a with
  | ⟨0, _⟩ => show win3_0.index t (0 : Fin 2) * 5000 + 1 * r.val = (i 0).val; rw [e0, h0]; omega
  | ⟨1, _⟩ => show win3_0.index t (1 : Fin 2) * 64 + 1 * j.val = (i 1).val; rw [e1, h1]; omega

/-- The bias's block at every point is the whole bias. -/
theorem bias_block (t : Fin cfg3.N) (j : Fin 64) (i : S64.Idx) (h0 : (i 0).val = j.val) :
    iblk3 (F := Ideal) V c 1 t (ix1 j) = V c main_arg5 i := by
  obtain ⟨-, -, e2, -, -, -⟩ := idx_facts t
  show V c main_arg5 (((cfg3.win 1).blk t).view.emb (ix1 j)) = V c main_arg5 i
  refine congrArg (V c main_arg5) (funext fun a => Fin.ext ?_)
  match a with
  | ⟨0, _⟩ => show win3_1.index t (0 : Fin 1) * 64 + 1 * j.val = (i 0).val; rw [e2, h0]; omega

/-- The slope the body extracts from its one-element block is the slope array's one entry, which is also what the
    reference's reshape of that array to a scalar holds. -/
theorem slope_eq (t : Fin cfg3.N) (x6 : (⟨Cert.ReferenceIdeal.S1, .f32⟩ : BufTy).Contents (Elt Ideal)) (ha : V c main_arg6 = x6)
    (i : Cert.ReferenceIdeal.S_.Idx) :
    extractAt ![0] (iblk3 (F := Ideal) V c 2 t) inpos_S1_p0 = Cert.ReferenceIdeal.ReadP.val_main_v72 (F := Ideal) x6 i := by
  subst ha
  show V c main_arg6 _ = V c main_arg6 _
  exact congrArg (V c main_arg6) (one_idx _ _)

/-! ## From the ten row blocks to the array -/

/-- What point t writes back is row block t of ANY array G whose entry (R, j) is the log-softmax, at column j, of the row of
    activations at slope s of A's row R plus B — A the aggregate and B the bias as the region finds them, s the slope the
    body extracts. -/
theorem flushed_eq (A : FVec Ideal S50000x64 .f32) (B : FVec Ideal S64 .f32) (s : Ideal .f32) (G : FVec Ideal S50000x64 .f32)
    (hagg : V c main_v58 = A) (hb : V c main_arg5 = B)
    (hs : ∀ t : Fin cfg3.N, extractAt ![0] (iblk3 (F := Ideal) V c 2 t) inpos_S1_p0 = s)
    (hG : ∀ (R : Fin 50000) (j : Fin 64), G (ix2 R j) = logsoftmax (fun k => Cert.KernelIdeal.Activation1.prelu s (FloatOps.addf (F := Ideal) (φ := .f32) (A (ix2 R k)) (B (ix1 k)))) j)
    (t : Fin cfg3.N) :
    (dat3 (F := Ideal) V c).flushed 3 t = ((cfg3.win 3).blk t).view.read (Elt Ideal) G := by
  show (cfg3.win 3).cut (grid3.coords t) ((dat3 (F := Ideal) V c).after 3 t) = _
  rw [after3_3]
  unfold out3_3
  rw [View.canon_unit_zero hz]
  simp only [View.ld_unit_zero (S := S5000x64) hz, View.ld_unit_zero (S := S64) hz1, View.ld_unit_zero (S := S1) hz1]
  obtain ⟨-, -, -, -, e4, e5⟩ := idx_facts t
  funext y
  obtain ⟨r, j, rfl⟩ : ∃ (r : Fin 5000) (j : Fin 64), y = ix2 r j := ⟨y 0, y 1, eq_ix2 (n0 := 5000) (n1 := 64) y⟩
  have hr : r.val < 5000 := r.isLt
  have ht : t.val < 10 := lt_of_lt_of_eq t.isLt N_3
  have hrow : t.val * 5000 + r.val < 50000 := by omega
  have hemb : ((cfg3.win 3).blk t).view.emb (ix2 r j) = ix2 (⟨t.val * 5000 + r.val, hrow⟩ : Fin 50000) j := funext fun a => Fin.ext (by
    match a with
    | ⟨0, _⟩ => show win3_3.index t (0 : Fin 2) * 5000 + 1 * r.val = t.val * 5000 + r.val; rw [e4]; omega
    | ⟨1, _⟩ => show win3_3.index t (1 : Fin 2) * 64 + 1 * j.val = j.val; rw [e5]; omega)
  show k3_pay1 (F := Ideal) (iblk3 (F := Ideal) V c 0 t) (iblk3 (F := Ideal) V c 1 t) (iblk3 (F := Ideal) V c 2 t) (ix2 r j)
    = G (((cfg3.win 3).blk t).view.emb (ix2 r j))
  rw [hemb, hG]
  refine (payload_apply _ _ _ r j).trans ?_
  refine congrArg (fun row => logsoftmax row j) (funext fun k => ?_)
  have e1 : iblk3 (F := Ideal) V c 0 t (ix2 r k) = A (ix2 (⟨t.val * 5000 + r.val, hrow⟩ : Fin 50000) k) :=
    (row_block V c t r k (ix2 (⟨t.val * 5000 + r.val, hrow⟩ : Fin 50000) k) rfl rfl).trans (congrFun hagg _)
  have e2 : iblk3 (F := Ideal) V c 1 t (ix1 k) = B (ix1 k) := (bias_block V c t k (ix1 k) rfl).trans (congrFun hb _)
  rw [hs t, e1, e2]

/-- An index of the output array is in point t's block iff its row is among the block's 5000 rows. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v59).slice (win3_3.rect t)).set ↔ _
  rw [View.set_slice_whole, Rect.mem_set_unit]
  exact Iff.rfl

/-- Row i of the output lies in the block of point i / 5000, and every point writes its block back. -/
theorem cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 10 := N_3
  have hlt : (i 0).val / 5000 < grid3.N := by rw [hN]; omega
  obtain ⟨-, -, -, -, e4, e5⟩ := idx_facts ⟨(i 0).val / 5000, hlt⟩
  refine ⟨⟨(i 0).val / 5000, hlt⟩, flush3_3 _, ?_⟩
  rw [mem_blk]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_3.index ⟨(i 0).val / 5000, hlt⟩ (1 : Fin 2) * 64 ≤ (i 1).val ∧ (i 1).val < win3_3.index ⟨(i 0).val / 5000, hlt⟩ (1 : Fin 2) * 64 + 64
    rw [e5]; omega

/-! ## The reference's log-softmax, read at an entry -/

variable (x0 : (⟨Cert.ReferenceIdeal.S50000x256, .f32⟩ : BufTy).Contents (Elt Ideal)) (x1 : (⟨Cert.ReferenceIdeal.S2x1200000, .i32⟩ : BufTy).Contents (Elt Ideal))
    (x2 : (⟨Cert.ReferenceIdeal.S256x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x6 : (⟨Cert.ReferenceIdeal.S1, .f32⟩ : BufTy).Contents (Elt Ideal))

/-- Reducing a [50000, 64] array over its second axis leaves a [50000] array. -/
theorem reduces_rows : Cert.ReferenceIdeal.S50000x64.Reduces [1] Cert.ReferenceIdeal.S50000 := by decide

/-- Putting column k back into the reduced index R gives the entry (R, k). -/
theorem lift_row (h : (⟨2, ![50000, 64]⟩ : Shape).Reduces [1] (⟨1, ![50000]⟩ : Shape)) (R : Fin 50000) (k : Fin ((⟨2, ![50000, 64]⟩ : Shape).size 1)) :
    h.lift (ix1 R) k = ix2 R (⟨k.val, k.isLt⟩ : Fin 64) := by
  funext c; apply Fin.ext
  fin_cases c <;> rfl

/-- A host reduce with a maximum body over the second axis of a [50000, 64] array, from a start value that is −∞, is at row R
    the row's maximum. -/
theorem host_rowmax (x : FVec Ideal (⟨2, ![50000, 64]⟩ : Shape) .f32) (init : (⟨0, ![]⟩ : Shape).Idx → Ideal .f32)
    (h' : (⟨2, ![50000, 64]⟩ : Shape).ReducesTo [1] (⟨1, ![50000]⟩ : Shape)) (h : (⟨2, ![50000, 64]⟩ : Shape).Reduces [1] (⟨1, ![50000]⟩ : Shape)) (hu : 0 < (⟨0, ![]⟩ : Shape).numel)
    (hinit : init (Shape.Idx.first hu) = Ideal.ofBits .f32 0xFF800000#32) (R : Fin 50000) :
    Host.reduce (FloatOps.maximumf (F := Ideal) (φ := .f32)) x init h' hu (ix1 R) = rowmax (fun k => x (ix2 R k)) := by
  rw [Host.reduce_eq_fold_single FloatOps.maximumf x _ h' h hu, hinit]
  unfold rowmax
  have hf : (x ∘ h.lift (ix1 R)) = fun k : Fin 64 => x (ix2 R k) := funext fun k => congrArg x (lift_row h R k)
  exact congrArg (fun f => Finset.fold max (Ideal.ofBits .f32 0xFF800000#32) f (Finset.univ : Finset (Fin 64))) hf

/-- The reference's row maximum, as its broadcast reads it at entry (R, j): the maximum of −∞ and the fold of max from −∞ over
    row R of the activations, which is that fold. -/
theorem reference_rowmax (R : Fin 50000) (j : Fin 64) :
    Cert.ReferenceIdeal.ReadP.val_main_call3_v4 (F := Ideal) x0 x1 x2 x3 x4 x5 x6 (ix2 R j) = rowmax (fun k => Cert.ReferenceIdeal.ReadP.val_main_v75 (F := Ideal) x0 x1 x2 x3 x4 x5 x6 (ix2 R k)) := by
  rw [Cert.ReferenceIdeal.ReadP.val_main_call3_v4_apply, Cert.ReferenceIdeal.ReadP.val_main_call3_v3_apply, Cert.ReferenceIdeal.ReadP.val_main_call3_v2_apply, Cert.ReferenceIdeal.ReadP.val_main_call3_v1_apply,
    Cert.ReferenceIdeal.ReadP.val_main_call3_cst_0_apply]
  unfold Cert.ReferenceIdeal.ReadP.val_main_call3_v0
  generalize Cert.ReferenceIdeal.ReadP.val_main_v75 (F := Ideal) x0 x1 x2 x3 x4 x5 x6 = Hf
  have hj : Cert.ReferenceIdeal.ReadP.idx_main_call3_v3 (Cert.ReferenceIdeal.ReadP.idx_main_call3_v4 (ix2 R j)) = ix1 R :=
    funext fun a => Fin.ext (by match a with | ⟨0, _⟩ => rfl)
  rw [hj]
  refine (congrArg (FloatOps.maximumf (F := Ideal) (φ := .f32) (FloatOps.ofBits .f32 0xFF800000#32))
    (host_rowmax Hf (Cert.ReferenceIdeal.ReadP.val_main_call3_cst (F := Ideal)) Cert.ReferenceIdeal.Gen.reducesTo_S50000x64_S50000_d1 reduces_rows Cert.ReferenceIdeal.Gen.h_S_ rfl R)).trans ?_
  unfold rowmax
  exact max_start_fold_max (α := EReal) (Ideal.ofBits .f32 0xFF800000#32) _ Finset.univ

/-- The reference's result at entry (R, j) is the log-softmax of row R of the activations at column j. -/
theorem reference_lsm_apply (R : Fin 50000) (j : Fin 64) :
    Cert.ReferenceIdeal.ReadP.val_main_v76 (F := Ideal) x0 x1 x2 x3 x4 x5 x6 (ix2 R j) = logsoftmax (fun k => Cert.ReferenceIdeal.ReadP.val_main_v75 (F := Ideal) x0 x1 x2 x3 x4 x5 x6 (ix2 R k)) j := by
  -- each term of the row sum: the exponential of the row's entry minus the row's maximum
  have hterm : ∀ k : Fin 64, Cert.ReferenceIdeal.ReadP.val_main_call3_v6 (F := Ideal) x0 x1 x2 x3 x4 x5 x6 (Cert.ReferenceIdeal.ReadP.idx_main_call3_v7 (Cert.ReferenceIdeal.ReadP.idx_main_call3_v8 (Cert.ReferenceIdeal.ReadP.idx_main_call3_v10 (ix2 R j))) k)
      = FloatOps.hostUnary (F := Ideal) (φ := .f32) .exp (FloatOps.subf (F := Ideal) (φ := .f32) (Cert.ReferenceIdeal.ReadP.val_main_v75 (F := Ideal) x0 x1 x2 x3 x4 x5 x6 (ix2 R k)) (rowmax fun k' => Cert.ReferenceIdeal.ReadP.val_main_v75 (F := Ideal) x0 x1 x2 x3 x4 x5 x6 (ix2 R k'))) := fun k => by
    have hidx : Cert.ReferenceIdeal.ReadP.idx_main_call3_v7 (Cert.ReferenceIdeal.ReadP.idx_main_call3_v8 (Cert.ReferenceIdeal.ReadP.idx_main_call3_v10 (ix2 R j))) k = ix2 R k := funext fun a => Fin.ext (by match a with | ⟨0, _⟩ => rfl | ⟨1, _⟩ => rfl)
    rw [hidx, Cert.ReferenceIdeal.ReadP.val_main_call3_v6_apply, Cert.ReferenceIdeal.ReadP.val_main_call3_v5_apply, reference_rowmax x0 x1 x2 x3 x4 x5 x6 R k]
  rw [Cert.ReferenceIdeal.ReadP.val_main_v76_apply]
  rw [Cert.ReferenceIdeal.ReadP.val_main_call3_v5_apply]
  rw [Cert.ReferenceIdeal.ReadP.val_main_call3_v10_apply]
  rw [Cert.ReferenceIdeal.ReadP.val_main_call3_v9_apply]
  rw [Cert.ReferenceIdeal.ReadP.val_main_call3_v8_apply]
  rw [Cert.ReferenceIdeal.ReadP.val_main_call3_v7_apply]
  rw [Cert.ReferenceIdeal.ReadP.val_main_call3_cst_1_apply]
  rw [reference_rowmax x0 x1 x2 x3 x4 x5 x6 R j]
  simp only [hterm]
  generalize Cert.ReferenceIdeal.ReadP.val_main_v75 (F := Ideal) x0 x1 x2 x3 x4 x5 x6 = Hf
  unfold logsoftmax
  show (Hf (ix2 R j) - rowmax fun k => Hf (ix2 R k))
      - Ideal.log (Ideal.ofBits .f32 0x00000000#32 + ∑ k : Fin 64, Ideal.exp (Hf (ix2 R k) - rowmax fun k' => Hf (ix2 R k'))) = _
  rw [Ideal.ofBits_zero_f32, zero_add]

/-- The reference's second-layer activation at entry (R, k): the activation, at the slope array's one entry, of the second
    aggregate plus the column's bias. -/
theorem reference_activation_apply (R : Fin 50000) (k : Fin 64) :
    Cert.ReferenceIdeal.ReadP.val_main_v75 (F := Ideal) x0 x1 x2 x3 x4 x5 x6 (ix2 R k)
      = Cert.KernelIdeal.Activation1.prelu (Cert.ReferenceIdeal.ReadP.val_main_v72 (F := Ideal) x6 (fun a => a.elim0))
          (FloatOps.addf (F := Ideal) (φ := .f32) (Cert.ReferenceIdeal.ReadP.val_main_v66 (F := Ideal) x0 x1 x2 x3 x4 x6 (ix2 R k)) (x5 (ix1 k))) := by
  rw [Cert.ReferenceIdeal.ReadP.val_main_v75_apply, Cert.ReferenceIdeal.ReadP.val_main_v71_apply, Cert.ReferenceIdeal.ReadP.val_main_v74_apply, Cert.ReferenceIdeal.ReadP.val_main_v69_apply, Cert.ReferenceIdeal.ReadP.val_main_v70_apply,
    Cert.ReferenceIdeal.ReadP.val_main_cst_13_apply, Cert.ReferenceIdeal.ReadP.val_main_v73_apply, Cert.ReferenceIdeal.ReadP.val_main_v68_apply, Cert.ReferenceIdeal.ReadP.val_main_v67_apply]
  generalize Cert.ReferenceIdeal.ReadP.val_main_v66 (F := Ideal) x0 x1 x2 x3 x4 x6 (ix2 R k) = u
  have hidx : Cert.ReferenceIdeal.ReadP.idx_main_v67 (Cert.ReferenceIdeal.ReadP.idx_main_v68 (ix2 R k)) = ix1 k := funext fun a => Fin.ext (by match a with | ⟨0, _⟩ => rfl)
  rw [hidx]
  rfl

/-- The last region's output array after its ten write-backs is the reference's result, entry by entry. -/
theorem region (hagg : V c main_v58 = Cert.ReferenceIdeal.ReadP.val_main_v66 (F := Ideal) x0 x1 x2 x3 x4 x6) (hb : V c main_arg5 = x5) (ha : V c main_arg6 = x6) :
    (dat3 (F := Ideal) V c).arrAt 3 cfg3.N = Cert.ReferenceIdeal.ReadP.val_main_v76 (F := Ideal) x0 x1 x2 x3 x4 x5 x6 :=
  (dat3 (F := Ideal) V c).arrAt_eq_of_cover 3 (Cert.ReferenceIdeal.ReadP.val_main_v76 (F := Ideal) x0 x1 x2 x3 x4 x5 x6)
    (fun t _ => flushed_eq V c (Cert.ReferenceIdeal.ReadP.val_main_v66 (F := Ideal) x0 x1 x2 x3 x4 x6) x5 (Cert.ReferenceIdeal.ReadP.val_main_v72 (F := Ideal) x6 (fun a => a.elim0))
      (Cert.ReferenceIdeal.ReadP.val_main_v76 (F := Ideal) x0 x1 x2 x3 x4 x5 x6) hagg hb (fun t => slope_eq V c t x6 ha _)
      (fun R j => (reference_lsm_apply x0 x1 x2 x3 x4 x5 x6 R j).trans
        (congrArg (fun row => logsoftmax row j) (funext fun k => reference_activation_apply x0 x1 x2 x3 x4 x5 x6 R k))) t)
    cover

end Cert.KernelIdeal.Activation3

end
-- ==== Proof.Fold.lean ====
/-
  The idealized kernel program's result, as the reference's function of the seven arguments. The program's run folds its
  segments in order (three host stretches, the first projection's region, the first aggregation stretch, the first
  epilogue's region, the second projection's region, the second aggregation stretch, the last epilogue's region), and each
  segment's reading is known:

    - the prologue computes the sources, targets and edge weights from the edge index exactly as the reference does;
    - a region leaves its output array at the reference's next stage of what it read, its input arrays unchanged, and
      does not touch any other buffer;
    - an aggregation stretch, from the reference's sources, targets, weights and projected features, ends at the
      reference's aggregate, and leaves what it does not write as it was.

  Walking the fold forward, the buffers a later segment reads are carried along unchanged through the segments that do
  not write them; no host operation and no region writes an argument array. At the end the result array holds the
  reference's last stage — the row-wise log-softmax of the second layer's activations — of the arguments as launched.
-/
import proofs.«162441_j60335700574378_1_alg».proof.Proof.Gen.KernelIdeal.Frame
import proofs.«162441_j60335700574378_1_alg».proof.Proof.RefReadP
import proofs.«162441_j60335700574378_1_alg».proof.Proof.HostSide
import proofs.«162441_j60335700574378_1_alg».proof.Proof.Product1
import proofs.«162441_j60335700574378_1_alg».proof.Proof.Activation1
import proofs.«162441_j60335700574378_1_alg».proof.Proof.Product2
import proofs.«162441_j60335700574378_1_alg».proof.Proof.Activation3

set_option maxRecDepth 16384

noncomputable section

namespace Cert.KernelIdeal.Fold

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-- The result array at the end of the fold is the reference's last stage of the seven arguments as launched. -/
theorem result : W9 m ρ c (Proc.devRef .tc main_v59) = Cert.ReferenceIdeal.ReadP.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  -- after the first stretch
  have w1_3 : W1 m ρ c (Proc.devRef .tc main_v3) = Cert.ReferenceIdeal.ReadP.val_main_v3 (F := Ideal) (m ((c : Thread nD τ).loc main_arg1)) := Cert.KernelIdeal.HostSide.stretch0_sources (W0 m ρ c) (m ((c : Thread nD τ).loc main_arg1)) rfl
  have w1_6 : W1 m ρ c (Proc.devRef .tc main_v6) = Cert.ReferenceIdeal.ReadP.val_main_v6 (F := Ideal) (m ((c : Thread nD τ).loc main_arg1)) := Cert.KernelIdeal.HostSide.stretch0_targets (W0 m ρ c) (m ((c : Thread nD τ).loc main_arg1)) rfl
  have w1_12 : W1 m ρ c (Proc.devRef .tc main_v12) = Cert.ReferenceIdeal.ReadP.val_main_v12 (F := Ideal) (m ((c : Thread nD τ).loc main_arg1)) := Cert.KernelIdeal.HostSide.stretch0_positive (W0 m ρ c) (m ((c : Thread nD τ).loc main_arg1)) rfl
  have w1_13 : W1 m ρ c (Proc.devRef .tc main_v13) = Cert.ReferenceIdeal.ReadP.val_main_v13 (F := Ideal) (m ((c : Thread nD τ).loc main_arg1)) := Cert.KernelIdeal.HostSide.stretch0_rsqrt (W0 m ρ c) (m ((c : Thread nD τ).loc main_arg1)) rfl
  have w1_c : W1 m ρ c (Proc.devRef .tc main_cst_2) = Cert.ReferenceIdeal.ReadP.val_main_cst_2 (F := Ideal) := Cert.KernelIdeal.HostSide.stretch0_zero (W0 m ρ c)
  -- after the second
  have w2_14 : W2 m ρ c (Proc.devRef .tc main_v14) = Cert.ReferenceIdeal.ReadP.val_main_v14 (F := Ideal) (m ((c : Thread nD τ).loc main_arg1)) := Cert.KernelIdeal.HostSide.stretch1_factor (W1 m ρ c) (m ((c : Thread nD τ).loc main_arg1)) w1_12 w1_13 w1_c
  have w2_3 : W2 m ρ c (Proc.devRef .tc main_v3) = Cert.ReferenceIdeal.ReadP.val_main_v3 (F := Ideal) (m ((c : Thread nD τ).loc main_arg1)) := (Cert.KernelIdeal.HostSide.stretch1_keeps_v3 (W1 m ρ c)).trans w1_3
  have w2_6 : W2 m ρ c (Proc.devRef .tc main_v6) = Cert.ReferenceIdeal.ReadP.val_main_v6 (F := Ideal) (m ((c : Thread nD τ).loc main_arg1)) := (Cert.KernelIdeal.HostSide.stretch1_keeps_v6 (W1 m ρ c)).trans w1_6
  -- after the third: the first region's entry
  have w3_29 : W3 m ρ c (Proc.devRef .tc main_v29) = Cert.ReferenceIdeal.ReadP.val_main_v29 (F := Ideal) (m ((c : Thread nD τ).loc main_arg1)) := Cert.KernelIdeal.HostSide.stretch2_weights (W2 m ρ c) (m ((c : Thread nD τ).loc main_arg1)) w2_3 w2_6 w2_14
  have w3_3 : W3 m ρ c (Proc.devRef .tc main_v3) = Cert.ReferenceIdeal.ReadP.val_main_v3 (F := Ideal) (m ((c : Thread nD τ).loc main_arg1)) := (Cert.KernelIdeal.HostSide.stretch2_keeps_v3 (W2 m ρ c)).trans w2_3
  have w3_6 : W3 m ρ c (Proc.devRef .tc main_v6) = Cert.ReferenceIdeal.ReadP.val_main_v6 (F := Ideal) (m ((c : Thread nD τ).loc main_arg1)) := (Cert.KernelIdeal.HostSide.stretch2_keeps_v6 (W2 m ρ c)).trans w2_6
  have w3_a0 : W3 m ρ c (Proc.devRef .tc main_arg0) = (m ((c : Thread nD τ).loc main_arg0)) := Cert.KernelIdeal.HostSide.prologue_keeps_arg0 (W0 m ρ c)
  have w3_a2 : W3 m ρ c (Proc.devRef .tc main_arg2) = (m ((c : Thread nD τ).loc main_arg2)) := Cert.KernelIdeal.HostSide.prologue_keeps_arg2 (W0 m ρ c)
  have w3_a3 : W3 m ρ c (Proc.devRef .tc main_arg3) = (m ((c : Thread nD τ).loc main_arg3)) := Cert.KernelIdeal.HostSide.prologue_keeps_arg3 (W0 m ρ c)
  have w3_a4 : W3 m ρ c (Proc.devRef .tc main_arg4) = (m ((c : Thread nD τ).loc main_arg4)) := Cert.KernelIdeal.HostSide.prologue_keeps_arg4 (W0 m ρ c)
  have w3_a5 : W3 m ρ c (Proc.devRef .tc main_arg5) = (m ((c : Thread nD τ).loc main_arg5)) := Cert.KernelIdeal.HostSide.prologue_keeps_arg5 (W0 m ρ c)
  have w3_a6 : W3 m ρ c (Proc.devRef .tc main_arg6) = (m ((c : Thread nD τ).loc main_arg6)) := Cert.KernelIdeal.HostSide.prologue_keeps_arg6 (W0 m ρ c)
  -- after the first projection's region
  have w4_30 : W4 m ρ c (Proc.devRef .tc main_v30) = Cert.ReferenceIdeal.ReadP.val_main_v30 (F := Ideal) (m ((c : Thread nD τ).loc main_arg0)) (m ((c : Thread nD τ).loc main_arg2)) :=
    (W4_arr m ρ c 2).trans (Cert.KernelIdeal.Product1.region (V3 m ρ) c (m ((c : Thread nD τ).loc main_arg0)) (m ((c : Thread nD τ).loc main_arg2)) w3_a0 w3_a2)
  have w4_3 : W4 m ρ c (Proc.devRef .tc main_v3) = Cert.ReferenceIdeal.ReadP.val_main_v3 (F := Ideal) (m ((c : Thread nD τ).loc main_arg1)) := (W4_of_ne m ρ c main_v3 (by decide)).trans w3_3
  have w4_6 : W4 m ρ c (Proc.devRef .tc main_v6) = Cert.ReferenceIdeal.ReadP.val_main_v6 (F := Ideal) (m ((c : Thread nD τ).loc main_arg1)) := (W4_of_ne m ρ c main_v6 (by decide)).trans w3_6
  have w4_29 : W4 m ρ c (Proc.devRef .tc main_v29) = Cert.ReferenceIdeal.ReadP.val_main_v29 (F := Ideal) (m ((c : Thread nD τ).loc main_arg1)) := (W4_of_ne m ρ c main_v29 (by decide)).trans w3_29
  have w4_a3 : W4 m ρ c (Proc.devRef .tc main_arg3) = (m ((c : Thread nD τ).loc main_arg3)) := (W4_of_ne m ρ c main_arg3 (by decide)).trans w3_a3
  have w4_a4 : W4 m ρ c (Proc.devRef .tc main_arg4) = (m ((c : Thread nD τ).loc main_arg4)) := (W4_of_ne m ρ c main_arg4 (by decide)).trans w3_a4
  have w4_a5 : W4 m ρ c (Proc.devRef .tc main_arg5) = (m ((c : Thread nD τ).loc main_arg5)) := (W4_of_ne m ρ c main_arg5 (by decide)).trans w3_a5
  have w4_a6 : W4 m ρ c (Proc.devRef .tc main_arg6) = (m ((c : Thread nD τ).loc main_arg6)) := (W4_of_ne m ρ c main_arg6 (by decide)).trans w3_a6
  -- after the first aggregation stretch
  have w5_43 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) := Cert.KernelIdeal.HostSide.aggregate1 (W4 m ρ c) (m ((c : Thread nD τ).loc main_arg0)) (m ((c : Thread nD τ).loc main_arg1)) (m ((c : Thread nD τ).loc main_arg2)) w4_3 w4_6 w4_29 w4_30
  have w5_3 : W5 m ρ c (Proc.devRef .tc main_v3) = Cert.ReferenceIdeal.ReadP.val_main_v3 (F := Ideal) (m ((c : Thread nD τ).loc main_arg1)) := (Cert.KernelIdeal.HostSide.aggregate1_keeps_v3 (W4 m ρ c)).trans w4_3
  have w5_6 : W5 m ρ c (Proc.devRef .tc main_v6) = Cert.ReferenceIdeal.ReadP.val_main_v6 (F := Ideal) (m ((c : Thread nD τ).loc main_arg1)) := (Cert.KernelIdeal.HostSide.aggregate1_keeps_v6 (W4 m ρ c)).trans w4_6
  have w5_29 : W5 m ρ c (Proc.devRef .tc main_v29) = Cert.ReferenceIdeal.ReadP.val_main_v29 (F := Ideal) (m ((c : Thread nD τ).loc main_arg1)) := (Cert.KernelIdeal.HostSide.aggregate1_keeps_v29 (W4 m ρ c)).trans w4_29
  have w5_a3 : W5 m ρ c (Proc.devRef .tc main_arg3) = (m ((c : Thread nD τ).loc main_arg3)) := (Cert.KernelIdeal.HostSide.aggregate1_keeps_arg3 (W4 m ρ c)).trans w4_a3
  have w5_a4 : W5 m ρ c (Proc.devRef .tc main_arg4) = (m ((c : Thread nD τ).loc main_arg4)) := (Cert.KernelIdeal.HostSide.aggregate1_keeps_arg4 (W4 m ρ c)).trans w4_a4
  have w5_a5 : W5 m ρ c (Proc.devRef .tc main_arg5) = (m ((c : Thread nD τ).loc main_arg5)) := (Cert.KernelIdeal.HostSide.aggregate1_keeps_arg5 (W4 m ρ c)).trans w4_a5
  have w5_a6 : W5 m ρ c (Proc.devRef .tc main_arg6) = (m ((c : Thread nD τ).loc main_arg6)) := (Cert.KernelIdeal.HostSide.aggregate1_keeps_arg6 (W4 m ρ c)).trans w4_a6
  -- after the first epilogue's region
  have w6_44 : W6 m ρ c (Proc.devRef .tc main_v44) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
    (W6_arr m ρ c 3).trans (Cert.KernelIdeal.Activation1.region (V5 m ρ) c (m ((c : Thread nD τ).loc main_arg0)) (m ((c : Thread nD τ).loc main_arg1)) (m ((c : Thread nD τ).loc main_arg2)) (m ((c : Thread nD τ).loc main_arg3)) (m ((c : Thread nD τ).loc main_arg6)) w5_43 w5_a3 w5_a6)
  have w6_3 : W6 m ρ c (Proc.devRef .tc main_v3) = Cert.ReferenceIdeal.ReadP.val_main_v3 (F := Ideal) (m ((c : Thread nD τ).loc main_arg1)) := (W6_of_ne m ρ c main_v3 (by decide)).trans w5_3
  have w6_6 : W6 m ρ c (Proc.devRef .tc main_v6) = Cert.ReferenceIdeal.ReadP.val_main_v6 (F := Ideal) (m ((c : Thread nD τ).loc main_arg1)) := (W6_of_ne m ρ c main_v6 (by decide)).trans w5_6
  have w6_29 : W6 m ρ c (Proc.devRef .tc main_v29) = Cert.ReferenceIdeal.ReadP.val_main_v29 (F := Ideal) (m ((c : Thread nD τ).loc main_arg1)) := (W6_of_ne m ρ c main_v29 (by decide)).trans w5_29
  have w6_a4 : W6 m ρ c (Proc.devRef .tc main_arg4) = (m ((c : Thread nD τ).loc main_arg4)) := (W6_of_ne m ρ c main_arg4 (by decide)).trans w5_a4
  have w6_a5 : W6 m ρ c (Proc.devRef .tc main_arg5) = (m ((c : Thread nD τ).loc main_arg5)) := (W6_of_ne m ρ c main_arg5 (by decide)).trans w5_a5
  have w6_a6 : W6 m ρ c (Proc.devRef .tc main_arg6) = (m ((c : Thread nD τ).loc main_arg6)) :=
    ((W6_arr m ρ c 2).trans (((dat1 (V5 m ρ) c).arrAt_in 2 rfl _).trans (A_eq1 (V5 m ρ) c 2))).trans w5_a6
  -- after the second projection's region
  have w7_45 : W7 m ρ c (Proc.devRef .tc main_v45) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
    (W7_arr m ρ c 2).trans (Cert.KernelIdeal.Product2.region (V6 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) w6_44 w6_a4)
  have w7_3 : W7 m ρ c (Proc.devRef .tc main_v3) = Cert.ReferenceIdeal.ReadP.val_main_v3 (F := Ideal) (m ((c : Thread nD τ).loc main_arg1)) := (W7_of_ne m ρ c main_v3 (by decide)).trans w6_3
  have w7_6 : W7 m ρ c (Proc.devRef .tc main_v6) = Cert.ReferenceIdeal.ReadP.val_main_v6 (F := Ideal) (m ((c : Thread nD τ).loc main_arg1)) := (W7_of_ne m ρ c main_v6 (by decide)).trans w6_6
  have w7_29 : W7 m ρ c (Proc.devRef .tc main_v29) = Cert.ReferenceIdeal.ReadP.val_main_v29 (F := Ideal) (m ((c : Thread nD τ).loc main_arg1)) := (W7_of_ne m ρ c main_v29 (by decide)).trans w6_29
  have w7_a5 : W7 m ρ c (Proc.devRef .tc main_arg5) = (m ((c : Thread nD τ).loc main_arg5)) := (W7_of_ne m ρ c main_arg5 (by decide)).trans w6_a5
  have w7_a6 : W7 m ρ c (Proc.devRef .tc main_arg6) = (m ((c : Thread nD τ).loc main_arg6)) := (W7_of_ne m ρ c main_arg6 (by decide)).trans w6_a6
  -- after the second aggregation stretch
  have w8_58 : W8 m ρ c (Proc.devRef .tc main_v58) = Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := Cert.KernelIdeal.HostSide.aggregate2 (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) w7_3 w7_6 w7_29 w7_45
  have w8_a5 : W8 m ρ c (Proc.devRef .tc main_arg5) = (m ((c : Thread nD τ).loc main_arg5)) := (Cert.KernelIdeal.HostSide.aggregate2_keeps_arg5 (W7 m ρ c)).trans w7_a5
  have w8_a6 : W8 m ρ c (Proc.devRef .tc main_arg6) = (m ((c : Thread nD τ).loc main_arg6)) := (Cert.KernelIdeal.HostSide.aggregate2_keeps_arg6 (W7 m ρ c)).trans w7_a6
  -- after the last epilogue's region
  exact (W9_arr m ρ c 3).trans (Cert.KernelIdeal.Activation3.region (V8 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) w8_58 w8_a5 w8_a6)

end Cert.KernelIdeal.Fold

end
-- ==== Proof.ReferenceRun.lean ====
/-
  The idealized reference program's run, read in stages. The reference is a straight line of 109 host operations, and what
  a buffer holds at the end is the fold of the operations' results over the launch contents. The line is cut into six
  consecutive stretches:

    A  (read in three parts) the edge lists and weights: sources s and targets d with the self-loops appended, the in-degrees by a scatter-add
       of ones over d, their inverse square roots where positive, and the edge weights as the product of the two gathered
       factors (40 operations, from the edge index alone);
    B  the first projection x · W1 and the first aggregate: rows s gathered, scaled by the weights, scatter-added at d;
    C  the first layer's bias and PReLU;
    D  the second projection and the second aggregate;
    E  the second layer's bias and PReLU;
    F  the log-softmax over each row.

  The fold of a concatenation is the fold of the second list over the fold of the first, so each stretch is read on its
  own, from ANY contents Y of the buffers at its start: if Y holds the earlier stages' values at the buffers the stretch
  reads, then after the stretch its last buffer holds the next stage's value, and every buffer the stretch does not write
  is as it was. Chaining the six readings gives the result array as the last stage's function of the seven arguments.
  Each stage's value is spelled by the same operations in the same order as the stretch, so each reading is an unfolding.
-/
import proofs.«162441_j60335700574378_1_alg».proof.Proof.RefRunP
import proofs.«162441_j60335700574378_1_alg».proof.Proof.RefReadP
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

/-- The fold of a concatenation is the fold of the second list over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {F : FTy → Type} [FloatOps F]

/-- Stretch A, first part: sources, targets, the in-degree, where it is positive, its inverse square root. -/
abbrev opsA0 : List (HloOp τ sig (Elt F)) :=
  [ nullary main_v0 (iotaInDim S50000 32 0),
    unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    reshape main_v1 main_v2 rfl shapeCasts_S1x1200000_S1200000,
    binary main_v2 main_v0 main_v3 ((fun a b => concatenate S1250000 0 [⟨S1200000, a⟩, ⟨S50000, b⟩] concatenates_S1200000_S50000_S1250000_d0) : (⟨S1200000, .i32⟩ : BufTy).Contents (Elt F) → (⟨S50000, .i32⟩ : BufTy).Contents (Elt F) → (⟨S1250000, .i32⟩ : BufTy).Contents (Elt F)),
    unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    reshape main_v4 main_v5 rfl shapeCasts_S1x1200000_S1200000,
    binary main_v5 main_v0 main_v6 ((fun a b => concatenate S1250000 0 [⟨S1200000, a⟩, ⟨S50000, b⟩] concatenates_S1200000_S50000_S1250000_d0) : (⟨S1200000, .i32⟩ : BufTy).Contents (Elt F) → (⟨S50000, .i32⟩ : BufTy).Contents (Elt F) → (⟨S1250000, .i32⟩ : BufTy).Contents (Elt F)),
    nullary main_cst (constant S_ .f32 0x3F800000#32),
    unary main_cst main_v7 (broadcastInDim S1250000 ![] bcast_S_S1250000 : (⟨S_, .f32⟩ : BufTy).Contents (Elt F) → (⟨S1250000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1250000x1 ![0] bcast_S1250000_S1250000x1_0 : (⟨S1250000, .i32⟩ : BufTy).Contents (Elt F) → (⟨S1250000x1, .i32⟩ : BufTy).Contents (Elt F)),
    ternary main_v8 main_v9 main_v7 main_v10 ((fun x i u => Host.scatterAdd scatter_S50000_S1250000x1_S1250000_n_0_0_1 x i u) : (⟨S50000, .f32⟩ : BufTy).Contents (Elt F) → (⟨S1250000x1, .i32⟩ : BufTy).Contents (Elt F) → (⟨S1250000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Stretch A, second part: the factor — the inverse square root where the degree is positive, zero elsewhere. -/
abbrev opsA1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Stretch A, third part: the factor gathered at both endpoints of every edge, and their product. -/
abbrev opsA2 : List (HloOp τ sig (Elt F)) :=
  [ nullary main_c (constantI S_ 32 0#32),
    unary main_c main_v15 (broadcastInDim S1250000 ![] bcast_S_S1250000 : (⟨S_, .i32⟩ : BufTy).Contents (Elt F) → (⟨S1250000, .i32⟩ : BufTy).Contents (Elt F)),
    binary main_v3 main_v15 main_v16 (cmpi .slt : (⟨S1250000, .i32⟩ : BufTy).Contents (Elt F) → (⟨S1250000, .i32⟩ : BufTy).Contents (Elt F) → (⟨S1250000, .i1⟩ : BufTy).Contents (Elt F)),
    nullary main_c_3 (constantI S_ 32 50000#32),
    unary main_c_3 main_v17 (broadcastInDim S1250000 ![] bcast_S_S1250000 : (⟨S_, .i32⟩ : BufTy).Contents (Elt F) → (⟨S1250000, .i32⟩ : BufTy).Contents (Elt F)),
    binary main_v3 main_v17 main_v18 (addi : (⟨S1250000, .i32⟩ : BufTy).Contents (Elt F) → (⟨S1250000, .i32⟩ : BufTy).Contents (Elt F) → (⟨S1250000, .i32⟩ : BufTy).Contents (Elt F)),
    ternary main_v16 main_v18 main_v3 main_v19 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v19 main_v20 (broadcastInDim S1250000x1 ![0] bcast_S1250000_S1250000x1_0 : (⟨S1250000, .i32⟩ : BufTy).Contents (Elt F) → (⟨S1250000x1, .i32⟩ : BufTy).Contents (Elt F)),
    binary main_v14 main_v20 main_v21 ((fun x i => Host.gather gather_S50000_S1250000x1_S1250000_n_0_n_n_0_1_1 x i) : (⟨S50000, .f32⟩ : BufTy).Contents (Elt F) → (⟨S1250000x1, .i32⟩ : BufTy).Contents (Elt F) → (⟨S1250000, .f32⟩ : BufTy).Contents (Elt F)),
    nullary main_c_4 (constantI S_ 32 0#32),
    unary main_c_4 main_v22 (broadcastInDim S1250000 ![] bcast_S_S1250000 : (⟨S_, .i32⟩ : BufTy).Contents (Elt F) → (⟨S1250000, .i32⟩ : BufTy).Contents (Elt F)),
    binary main_v6 main_v22 main_v23 (cmpi .slt : (⟨S1250000, .i32⟩ : BufTy).Contents (Elt F) → (⟨S1250000, .i32⟩ : BufTy).Contents (Elt F) → (⟨S1250000, .i1⟩ : BufTy).Contents (Elt F)),
    nullary main_c_5 (constantI S_ 32 50000#32),
    unary main_c_5 main_v24 (broadcastInDim S1250000 ![] bcast_S_S1250000 : (⟨S_, .i32⟩ : BufTy).Contents (Elt F) → (⟨S1250000, .i32⟩ : BufTy).Contents (Elt F)),
    binary main_v6 main_v24 main_v25 (addi : (⟨S1250000, .i32⟩ : BufTy).Contents (Elt F) → (⟨S1250000, .i32⟩ : BufTy).Contents (Elt F) → (⟨S1250000, .i32⟩ : BufTy).Contents (Elt F)),
    ternary main_v23 main_v25 main_v6 main_v26 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v26 main_v27 (broadcastInDim S1250000x1 ![0] bcast_S1250000_S1250000x1_0 : (⟨S1250000, .i32⟩ : BufTy).Contents (Elt F) → (⟨S1250000x1, .i32⟩ : BufTy).Contents (Elt F)),
    binary main_v14 main_v27 main_v28 ((fun x i => Host.gather gather_S50000_S1250000x1_S1250000_n_0_n_n_0_1_1 x i) : (⟨S50000, .f32⟩ : BufTy).Contents (Elt F) → (⟨S1250000x1, .i32⟩ : BufTy).Contents (Elt F) → (⟨S1250000, .f32⟩ : BufTy).Contents (Elt F)),
    binary main_v21 main_v28 main_v29 (mulf : (⟨S1250000, .f32⟩ : BufTy).Contents (Elt F) → (⟨S1250000, .f32⟩ : BufTy).Contents (Elt F) → (⟨S1250000, .f32⟩ : BufTy).Contents (Elt F)) ]

/-- Stretch B: the first projection and the first aggregate. -/
abbrev opsB : List (HloOp τ sig (Elt F)) :=
  [ binary main_arg0 main_arg2 main_v30 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_c_6 (constantI S_ 32 0#32),
    unary main_c_6 main_v31 (broadcastInDim S1250000 ![] bcast_S_S1250000 : (⟨S_, .i32⟩ : BufTy).Contents (Elt F) → (⟨S1250000, .i32⟩ : BufTy).Contents (Elt F)),
    binary main_v3 main_v31 main_v32 (cmpi .slt : (⟨S1250000, .i32⟩ : BufTy).Contents (Elt F) → (⟨S1250000, .i32⟩ : BufTy).Contents (Elt F) → (⟨S1250000, .i1⟩ : BufTy).Contents (Elt F)),
    nullary main_c_7 (constantI S_ 32 50000#32),
    unary main_c_7 main_v33 (broadcastInDim S1250000 ![] bcast_S_S1250000 : (⟨S_, .i32⟩ : BufTy).Contents (Elt F) → (⟨S1250000, .i32⟩ : BufTy).Contents (Elt F)),
    binary main_v3 main_v33 main_v34 (addi : (⟨S1250000, .i32⟩ : BufTy).Contents (Elt F) → (⟨S1250000, .i32⟩ : BufTy).Contents (Elt F) → (⟨S1250000, .i32⟩ : BufTy).Contents (Elt F)),
    ternary main_v32 main_v34 main_v3 main_v35 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v35 main_v36 (broadcastInDim S1250000x1 ![0] bcast_S1250000_S1250000x1_0 : (⟨S1250000, .i32⟩ : BufTy).Contents (Elt F) → (⟨S1250000x1, .i32⟩ : BufTy).Contents (Elt F)),
    binary main_v30 main_v36 main_v37 ((fun x i => Host.gather gather_S50000x64_S1250000x1_S1250000x64_1_0_n_n_0_1_164 x i) : (⟨S50000x64, .f32⟩ : BufTy).Contents (Elt F) → (⟨S1250000x1, .i32⟩ : BufTy).Contents (Elt F) → (⟨S1250000x64, .f32⟩ : BufTy).Contents (Elt F)),
    unary main_v29 main_v38 (broadcastInDim S1250000x1 ![0] bcast_S1250000_S1250000x1_0 : (⟨S1250000, .f32⟩ : BufTy).Contents (Elt F) → (⟨S1250000x1, .f32⟩ : BufTy).Contents (Elt F)),
    unary main_v38 main_v39 (broadcastInDim S1250000x64 ![0, 1] bcast_S1250000x1_S1250000x64_0_1 : (⟨S1250000x1, .f32⟩ : BufTy).Contents (Elt F) → (⟨S1250000x64, .f32⟩ : BufTy).Contents (Elt F)),
    binary main_v37 main_v39 main_v40 (mulf : (⟨S1250000x64, .f32⟩ : BufTy).Contents (Elt F) → (⟨S1250000x64, .f32⟩ : BufTy).Contents (Elt F) → (⟨S1250000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S1250000x1 ![0] bcast_S1250000_S1250000x1_0 : (⟨S1250000, .i32⟩ : BufTy).Contents (Elt F) → (⟨S1250000x1, .i32⟩ : BufTy).Contents (Elt F)),
    ternary main_v41 main_v42 main_v40 main_v43 ((fun x i u => Host.scatterAdd scatter_S50000x64_S1250000x1_S1250000x64_1_0_0_1 x i u) : (⟨S50000x64, .f32⟩ : BufTy).Contents (Elt F) → (⟨S1250000x1, .i32⟩ : BufTy).Contents (Elt F) → (⟨S1250000x64, .f32⟩ : BufTy).Contents (Elt F) → (⟨S50000x64, .f32⟩ : BufTy).Contents (Elt F)) ]

/-- Stretch C: the first layer's bias and PReLU. -/
abbrev opsC : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x00000000#32),
    unary main_cst_9 main_v47 (broadcastInDim S50000x64 ![] bcast_S_S50000x64 : (⟨S_, .f32⟩ : BufTy).Contents (Elt F) → (⟨S50000x64, .f32⟩ : BufTy).Contents (Elt F)),
    binary main_v46 main_v47 main_v48 (cmpf .oge : (⟨S50000x64, .f32⟩ : BufTy).Contents (Elt F) → (⟨S50000x64, .f32⟩ : BufTy).Contents (Elt F) → (⟨S50000x64, .i1⟩ : BufTy).Contents (Elt F)),
    reshape main_arg6 main_v49 rfl shapeCasts_S1_S_,
    unary main_v49 main_v50 (broadcastInDim S50000x64 ![] bcast_S_S50000x64 : (⟨S_, .f32⟩ : BufTy).Contents (Elt F) → (⟨S50000x64, .f32⟩ : BufTy).Contents (Elt F)),
    binary main_v50 main_v46 main_v51 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v48) (TRef.of (T := ⟨S50000x64, .f32⟩) main_v46) (TRef.of (T := ⟨S50000x64, .f32⟩) main_v51) (TRef.of (T := ⟨S50000x64, .f32⟩) main_v52) select ]

/-- Stretch D: the second projection and the second aggregate. -/
abbrev opsD : List (HloOp τ sig (Elt F)) :=
  [ binary main_v52 main_arg4 main_v53 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_10 (constantI S_ 32 0#32),
    unary main_c_10 main_v54 (broadcastInDim S1250000 ![] bcast_S_S1250000 : (⟨S_, .i32⟩ : BufTy).Contents (Elt F) → (⟨S1250000, .i32⟩ : BufTy).Contents (Elt F)),
    binary main_v3 main_v54 main_v55 (cmpi .slt : (⟨S1250000, .i32⟩ : BufTy).Contents (Elt F) → (⟨S1250000, .i32⟩ : BufTy).Contents (Elt F) → (⟨S1250000, .i1⟩ : BufTy).Contents (Elt F)),
    nullary main_c_11 (constantI S_ 32 50000#32),
    unary main_c_11 main_v56 (broadcastInDim S1250000 ![] bcast_S_S1250000 : (⟨S_, .i32⟩ : BufTy).Contents (Elt F) → (⟨S1250000, .i32⟩ : BufTy).Contents (Elt F)),
    binary main_v3 main_v56 main_v57 (addi : (⟨S1250000, .i32⟩ : BufTy).Contents (Elt F) → (⟨S1250000, .i32⟩ : BufTy).Contents (Elt F) → (⟨S1250000, .i32⟩ : BufTy).Contents (Elt F)),
    ternary main_v55 main_v57 main_v3 main_v58 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v58 main_v59 (broadcastInDim S1250000x1 ![0] bcast_S1250000_S1250000x1_0 : (⟨S1250000, .i32⟩ : BufTy).Contents (Elt F) → (⟨S1250000x1, .i32⟩ : BufTy).Contents (Elt F)),
    binary main_v53 main_v59 main_v60 ((fun x i => Host.gather gather_S50000x64_S1250000x1_S1250000x64_1_0_n_n_0_1_164 x i) : (⟨S50000x64, .f32⟩ : BufTy).Contents (Elt F) → (⟨S1250000x1, .i32⟩ : BufTy).Contents (Elt F) → (⟨S1250000x64, .f32⟩ : BufTy).Contents (Elt F)),
    unary main_v29 main_v61 (broadcastInDim S1250000x1 ![0] bcast_S1250000_S1250000x1_0 : (⟨S1250000, .f32⟩ : BufTy).Contents (Elt F) → (⟨S1250000x1, .f32⟩ : BufTy).Contents (Elt F)),
    unary main_v61 main_v62 (broadcastInDim S1250000x64 ![0, 1] bcast_S1250000x1_S1250000x64_0_1 : (⟨S1250000x1, .f32⟩ : BufTy).Contents (Elt F) → (⟨S1250000x64, .f32⟩ : BufTy).Contents (Elt F)),
    binary main_v60 main_v62 main_v63 (mulf : (⟨S1250000x64, .f32⟩ : BufTy).Contents (Elt F) → (⟨S1250000x64, .f32⟩ : BufTy).Contents (Elt F) → (⟨S1250000x64, .f32⟩ : BufTy).Contents (Elt F)),
    nullary main_cst_12 (constant S_ .f32 0x00000000#32),
    unary main_cst_12 main_v64 (broadcastInDim S50000x64 ![] bcast_S_S50000x64 : (⟨S_, .f32⟩ : BufTy).Contents (Elt F) → (⟨S50000x64, .f32⟩ : BufTy).Contents (Elt F)),
    unary main_v6 main_v65 (broadcastInDim S1250000x1 ![0] bcast_S1250000_S1250000x1_0 : (⟨S1250000, .i32⟩ : BufTy).Contents (Elt F) → (⟨S1250000x1, .i32⟩ : BufTy).Contents (Elt F)),
    ternary main_v64 main_v65 main_v63 main_v66 ((fun x i u => Host.scatterAdd scatter_S50000x64_S1250000x1_S1250000x64_1_0_0_1 x i u) : (⟨S50000x64, .f32⟩ : BufTy).Contents (Elt F) → (⟨S1250000x1, .i32⟩ : BufTy).Contents (Elt F) → (⟨S1250000x64, .f32⟩ : BufTy).Contents (Elt F) → (⟨S50000x64, .f32⟩ : BufTy).Contents (Elt F)) ]

/-- Stretch E: the second layer's bias and PReLU. -/
abbrev opsE : List (HloOp τ sig (Elt F)) :=
  [ unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S50000x64 ![0, 1] bcast_S1x64_S50000x64_0_1 : (⟨S1x64, .f32⟩ : BufTy).Contents (Elt F) → (⟨S50000x64, .f32⟩ : BufTy).Contents (Elt F)),
    binary main_v66 main_v68 main_v69 (addf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x00000000#32),
    unary main_cst_13 main_v70 (broadcastInDim S50000x64 ![] bcast_S_S50000x64 : (⟨S_, .f32⟩ : BufTy).Contents (Elt F) → (⟨S50000x64, .f32⟩ : BufTy).Contents (Elt F)),
    binary main_v69 main_v70 main_v71 (cmpf .oge : (⟨S50000x64, .f32⟩ : BufTy).Contents (Elt F) → (⟨S50000x64, .f32⟩ : BufTy).Contents (Elt F) → (⟨S50000x64, .i1⟩ : BufTy).Contents (Elt F)),
    reshape main_arg6 main_v72 rfl shapeCasts_S1_S_,
    unary main_v72 main_v73 (broadcastInDim S50000x64 ![] bcast_S_S50000x64 : (⟨S_, .f32⟩ : BufTy).Contents (Elt F) → (⟨S50000x64, .f32⟩ : BufTy).Contents (Elt F)),
    binary main_v73 main_v69 main_v74 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v71) (TRef.of (T := ⟨S50000x64, .f32⟩) main_v69) (TRef.of (T := ⟨S50000x64, .f32⟩) main_v74) (TRef.of (T := ⟨S50000x64, .f32⟩) main_v75) select ]

/-- Stretch F: the log-softmax over each row. -/
abbrev opsF : List (HloOp τ sig (Elt F)) :=
  [ TRef.nullary (TRef.of (T := ⟨S_, .f32⟩) main_call3_cst) (constant S_ .f32 0xFF800000#32),
    TRef.binary (TRef.of (T := ⟨S50000x64, .f32⟩) main_v75) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v75) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v76) subf ]

set_option maxRecDepth 65536 in
/-- The program's operation list is the stretches in order (the first in its three parts). -/
theorem ops_stretches : (Cert.ReferenceIdeal.ValueP.ops : List (HloOp τ sig (Elt F))) = opsA0 ++ (opsA1 ++ (opsA2 ++ (opsB ++ (opsC ++ (opsD ++ (opsE ++ opsF)))))) := rfl

variable (Y : Valuation τ sig (Elt Ideal))
variable (x0 : (⟨S50000x256, .f32⟩ : BufTy).Contents (Elt Ideal)) (x1 : (⟨S2x1200000, .i32⟩ : BufTy).Contents (Elt Ideal))
    (x2 : (⟨S256x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S1, .f32⟩ : BufTy).Contents (Elt Ideal))

/-! ## Values written to a buffer and read back -/

/-! A value written to a buffer and read back at the buffer's declared shape and element type is the value itself. -/

/-- Contents moved to a typed reference's buffer type and back are the contents. -/
theorem ofBuf_toBuf {T : BufTy} {Val : EltTy → Type} (x : TRef sig T) (v : T.Contents Val) : x.ofBuf (x.toBuf v) = v := by
  obtain ⟨r, h, hd, hu⟩ := x
  subst h
  rfl

theorem ofBuf_cst_2 {Val : EltTy → Type} (w : (⟨S_, .f32⟩ : BufTy).Contents Val) :
    ((TRef.of main_cst_2 : TRef sig ⟨S_, .f32⟩).ofBuf w : (⟨S_, .f32⟩ : BufTy).Contents Val) = w := cast_eq _ _
theorem toBuf_cst_2 {Val : EltTy → Type} (w : (⟨S_, .f32⟩ : BufTy).Contents Val) :
    ((TRef.of main_cst_2 : TRef sig ⟨S_, .f32⟩).toBuf w : (⟨S_, .f32⟩ : BufTy).Contents Val) = w := cast_eq _ _
theorem ofBuf_call0_v0 {Val : EltTy → Type} (w : (⟨S_, .f32⟩ : BufTy).Contents Val) :
    ((TRef.of main_call0_v0 : TRef sig ⟨S_, .f32⟩).ofBuf w : (⟨S_, .f32⟩ : BufTy).Contents Val) = w := cast_eq _ _
theorem toBuf_call0_v0 {Val : EltTy → Type} (w : (⟨S_, .f32⟩ : BufTy).Contents Val) :
    ((TRef.of main_call0_v0 : TRef sig ⟨S_, .f32⟩).toBuf w : (⟨S_, .f32⟩ : BufTy).Contents Val) = w := cast_eq _ _
theorem ofBuf_call0_v1 {Val : EltTy → Type} (w : (⟨S50000, .f32⟩ : BufTy).Contents Val) :
    ((TRef.of main_call0_v1 : TRef sig ⟨S50000, .f32⟩).ofBuf w : (⟨S50000, .f32⟩ : BufTy).Contents Val) = w := cast_eq _ _
theorem toBuf_call0_v1 {Val : EltTy → Type} (w : (⟨S50000, .f32⟩ : BufTy).Contents Val) :
    ((TRef.of main_call0_v1 : TRef sig ⟨S50000, .f32⟩).toBuf w : (⟨S50000, .f32⟩ : BufTy).Contents Val) = w := cast_eq _ _
theorem ofBuf_v12 {Val : EltTy → Type} (w : (⟨S50000, .i1⟩ : BufTy).Contents Val) :
    ((TRef.of main_v12 : TRef sig ⟨S50000, .i1⟩).ofBuf w : (⟨S50000, .i1⟩ : BufTy).Contents Val) = w := cast_eq _ _
theorem toBuf_v12 {Val : EltTy → Type} (w : (⟨S50000, .i1⟩ : BufTy).Contents Val) :
    ((TRef.of main_v12 : TRef sig ⟨S50000, .i1⟩).toBuf w : (⟨S50000, .i1⟩ : BufTy).Contents Val) = w := cast_eq _ _
theorem ofBuf_v13 {Val : EltTy → Type} (w : (⟨S50000, .f32⟩ : BufTy).Contents Val) :
    ((TRef.of main_v13 : TRef sig ⟨S50000, .f32⟩).ofBuf w : (⟨S50000, .f32⟩ : BufTy).Contents Val) = w := cast_eq _ _
theorem toBuf_v13 {Val : EltTy → Type} (w : (⟨S50000, .f32⟩ : BufTy).Contents Val) :
    ((TRef.of main_v13 : TRef sig ⟨S50000, .f32⟩).toBuf w : (⟨S50000, .f32⟩ : BufTy).Contents Val) = w := cast_eq _ _
theorem ofBuf_v14 {Val : EltTy → Type} (w : (⟨S50000, .f32⟩ : BufTy).Contents Val) :
    ((TRef.of main_v14 : TRef sig ⟨S50000, .f32⟩).ofBuf w : (⟨S50000, .f32⟩ : BufTy).Contents Val) = w := cast_eq _ _
theorem toBuf_v14 {Val : EltTy → Type} (w : (⟨S50000, .f32⟩ : BufTy).Contents Val) :
    ((TRef.of main_v14 : TRef sig ⟨S50000, .f32⟩).toBuf w : (⟨S50000, .f32⟩ : BufTy).Contents Val) = w := cast_eq _ _
theorem ofBuf_v48 {Val : EltTy → Type} (w : (⟨S50000x64, .i1⟩ : BufTy).Contents Val) :
    ((TRef.of main_v48 : TRef sig ⟨S50000x64, .i1⟩).ofBuf w : (⟨S50000x64, .i1⟩ : BufTy).Contents Val) = w := cast_eq _ _
theorem toBuf_v48 {Val : EltTy → Type} (w : (⟨S50000x64, .i1⟩ : BufTy).Contents Val) :
    ((TRef.of main_v48 : TRef sig ⟨S50000x64, .i1⟩).toBuf w : (⟨S50000x64, .i1⟩ : BufTy).Contents Val) = w := cast_eq _ _
theorem ofBuf_v46 {Val : EltTy → Type} (w : (⟨S50000x64, .f32⟩ : BufTy).Contents Val) :
    ((TRef.of main_v46 : TRef sig ⟨S50000x64, .f32⟩).ofBuf w : (⟨S50000x64, .f32⟩ : BufTy).Contents Val) = w := cast_eq _ _
theorem toBuf_v46 {Val : EltTy → Type} (w : (⟨S50000x64, .f32⟩ : BufTy).Contents Val) :
    ((TRef.of main_v46 : TRef sig ⟨S50000x64, .f32⟩).toBuf w : (⟨S50000x64, .f32⟩ : BufTy).Contents Val) = w := cast_eq _ _
theorem ofBuf_v51 {Val : EltTy → Type} (w : (⟨S50000x64, .f32⟩ : BufTy).Contents Val) :
    ((TRef.of main_v51 : TRef sig ⟨S50000x64, .f32⟩).ofBuf w : (⟨S50000x64, .f32⟩ : BufTy).Contents Val) = w := cast_eq _ _
theorem toBuf_v51 {Val : EltTy → Type} (w : (⟨S50000x64, .f32⟩ : BufTy).Contents Val) :
    ((TRef.of main_v51 : TRef sig ⟨S50000x64, .f32⟩).toBuf w : (⟨S50000x64, .f32⟩ : BufTy).Contents Val) = w := cast_eq _ _
theorem ofBuf_v52 {Val : EltTy → Type} (w : (⟨S50000x64, .f32⟩ : BufTy).Contents Val) :
    ((TRef.of main_v52 : TRef sig ⟨S50000x64, .f32⟩).ofBuf w : (⟨S50000x64, .f32⟩ : BufTy).Contents Val) = w := cast_eq _ _
theorem toBuf_v52 {Val : EltTy → Type} (w : (⟨S50000x64, .f32⟩ : BufTy).Contents Val) :
    ((TRef.of main_v52 : TRef sig ⟨S50000x64, .f32⟩).toBuf w : (⟨S50000x64, .f32⟩ : BufTy).Contents Val) = w := cast_eq _ _
theorem ofBuf_v71 {Val : EltTy → Type} (w : (⟨S50000x64, .i1⟩ : BufTy).Contents Val) :
    ((TRef.of main_v71 : TRef sig ⟨S50000x64, .i1⟩).ofBuf w : (⟨S50000x64, .i1⟩ : BufTy).Contents Val) = w := cast_eq _ _
theorem toBuf_v71 {Val : EltTy → Type} (w : (⟨S50000x64, .i1⟩ : BufTy).Contents Val) :
    ((TRef.of main_v71 : TRef sig ⟨S50000x64, .i1⟩).toBuf w : (⟨S50000x64, .i1⟩ : BufTy).Contents Val) = w := cast_eq _ _
theorem ofBuf_v69 {Val : EltTy → Type} (w : (⟨S50000x64, .f32⟩ : BufTy).Contents Val) :
    ((TRef.of main_v69 : TRef sig ⟨S50000x64, .f32⟩).ofBuf w : (⟨S50000x64, .f32⟩ : BufTy).Contents Val) = w := cast_eq _ _
theorem toBuf_v69 {Val : EltTy → Type} (w : (⟨S50000x64, .f32⟩ : BufTy).Contents Val) :
    ((TRef.of main_v69 : TRef sig ⟨S50000x64, .f32⟩).toBuf w : (⟨S50000x64, .f32⟩ : BufTy).Contents Val) = w := cast_eq _ _
theorem ofBuf_v74 {Val : EltTy → Type} (w : (⟨S50000x64, .f32⟩ : BufTy).Contents Val) :
    ((TRef.of main_v74 : TRef sig ⟨S50000x64, .f32⟩).ofBuf w : (⟨S50000x64, .f32⟩ : BufTy).Contents Val) = w := cast_eq _ _
theorem toBuf_v74 {Val : EltTy → Type} (w : (⟨S50000x64, .f32⟩ : BufTy).Contents Val) :
    ((TRef.of main_v74 : TRef sig ⟨S50000x64, .f32⟩).toBuf w : (⟨S50000x64, .f32⟩ : BufTy).Contents Val) = w := cast_eq _ _
theorem ofBuf_v75 {Val : EltTy → Type} (w : (⟨S50000x64, .f32⟩ : BufTy).Contents Val) :
    ((TRef.of main_v75 : TRef sig ⟨S50000x64, .f32⟩).ofBuf w : (⟨S50000x64, .f32⟩ : BufTy).Contents Val) = w := cast_eq _ _
theorem toBuf_v75 {Val : EltTy → Type} (w : (⟨S50000x64, .f32⟩ : BufTy).Contents Val) :
    ((TRef.of main_v75 : TRef sig ⟨S50000x64, .f32⟩).toBuf w : (⟨S50000x64, .f32⟩ : BufTy).Contents Val) = w := cast_eq _ _
theorem ofBuf_call3_cst {Val : EltTy → Type} (w : (⟨S_, .f32⟩ : BufTy).Contents Val) :
    ((TRef.of main_call3_cst : TRef sig ⟨S_, .f32⟩).ofBuf w : (⟨S_, .f32⟩ : BufTy).Contents Val) = w := cast_eq _ _
theorem toBuf_call3_cst {Val : EltTy → Type} (w : (⟨S_, .f32⟩ : BufTy).Contents Val) :
    ((TRef.of main_call3_cst : TRef sig ⟨S_, .f32⟩).toBuf w : (⟨S_, .f32⟩ : BufTy).Contents Val) = w := cast_eq _ _
theorem ofBuf_call3_v0 {Val : EltTy → Type} (w : (⟨S50000, .f32⟩ : BufTy).Contents Val) :
    ((TRef.of main_call3_v0 : TRef sig ⟨S50000, .f32⟩).ofBuf w : (⟨S50000, .f32⟩ : BufTy).Contents Val) = w := cast_eq _ _
theorem toBuf_call3_v0 {Val : EltTy → Type} (w : (⟨S50000, .f32⟩ : BufTy).Contents Val) :
    ((TRef.of main_call3_v0 : TRef sig ⟨S50000, .f32⟩).toBuf w : (⟨S50000, .f32⟩ : BufTy).Contents Val) = w := cast_eq _ _
theorem ofBuf_call3_cst_0 {Val : EltTy → Type} (w : (⟨S_, .f32⟩ : BufTy).Contents Val) :
    ((TRef.of main_call3_cst_0 : TRef sig ⟨S_, .f32⟩).ofBuf w : (⟨S_, .f32⟩ : BufTy).Contents Val) = w := cast_eq _ _
theorem toBuf_call3_cst_0 {Val : EltTy → Type} (w : (⟨S_, .f32⟩ : BufTy).Contents Val) :
    ((TRef.of main_call3_cst_0 : TRef sig ⟨S_, .f32⟩).toBuf w : (⟨S_, .f32⟩ : BufTy).Contents Val) = w := cast_eq _ _
theorem ofBuf_call3_v1 {Val : EltTy → Type} (w : (⟨S50000, .f32⟩ : BufTy).Contents Val) :
    ((TRef.of main_call3_v1 : TRef sig ⟨S50000, .f32⟩).ofBuf w : (⟨S50000, .f32⟩ : BufTy).Contents Val) = w := cast_eq _ _
theorem toBuf_call3_v1 {Val : EltTy → Type} (w : (⟨S50000, .f32⟩ : BufTy).Contents Val) :
    ((TRef.of main_call3_v1 : TRef sig ⟨S50000, .f32⟩).toBuf w : (⟨S50000, .f32⟩ : BufTy).Contents Val) = w := cast_eq _ _
theorem ofBuf_call3_v2 {Val : EltTy → Type} (w : (⟨S50000, .f32⟩ : BufTy).Contents Val) :
    ((TRef.of main_call3_v2 : TRef sig ⟨S50000, .f32⟩).ofBuf w : (⟨S50000, .f32⟩ : BufTy).Contents Val) = w := cast_eq _ _
theorem toBuf_call3_v2 {Val : EltTy → Type} (w : (⟨S50000, .f32⟩ : BufTy).Contents Val) :
    ((TRef.of main_call3_v2 : TRef sig ⟨S50000, .f32⟩).toBuf w : (⟨S50000, .f32⟩ : BufTy).Contents Val) = w := cast_eq _ _
theorem ofBuf_call3_v3 {Val : EltTy → Type} (w : (⟨S50000x1, .f32⟩ : BufTy).Contents Val) :
    ((TRef.of main_call3_v3 : TRef sig ⟨S50000x1, .f32⟩).ofBuf w : (⟨S50000x1, .f32⟩ : BufTy).Contents Val) = w := cast_eq _ _
theorem toBuf_call3_v3 {Val : EltTy → Type} (w : (⟨S50000x1, .f32⟩ : BufTy).Contents Val) :
    ((TRef.of main_call3_v3 : TRef sig ⟨S50000x1, .f32⟩).toBuf w : (⟨S50000x1, .f32⟩ : BufTy).Contents Val) = w := cast_eq _ _
theorem ofBuf_call3_v4 {Val : EltTy → Type} (w : (⟨S50000x64, .f32⟩ : BufTy).Contents Val) :
    ((TRef.of main_call3_v4 : TRef sig ⟨S50000x64, .f32⟩).ofBuf w : (⟨S50000x64, .f32⟩ : BufTy).Contents Val) = w := cast_eq _ _
theorem toBuf_call3_v4 {Val : EltTy → Type} (w : (⟨S50000x64, .f32⟩ : BufTy).Contents Val) :
    ((TRef.of main_call3_v4 : TRef sig ⟨S50000x64, .f32⟩).toBuf w : (⟨S50000x64, .f32⟩ : BufTy).Contents Val) = w := cast_eq _ _
theorem ofBuf_call3_v5 {Val : EltTy → Type} (w : (⟨S50000x64, .f32⟩ : BufTy).Contents Val) :
    ((TRef.of main_call3_v5 : TRef sig ⟨S50000x64, .f32⟩).ofBuf w : (⟨S50000x64, .f32⟩ : BufTy).Contents Val) = w := cast_eq _ _
theorem toBuf_call3_v5 {Val : EltTy → Type} (w : (⟨S50000x64, .f32⟩ : BufTy).Contents Val) :
    ((TRef.of main_call3_v5 : TRef sig ⟨S50000x64, .f32⟩).toBuf w : (⟨S50000x64, .f32⟩ : BufTy).Contents Val) = w := cast_eq _ _
theorem ofBuf_call3_v6 {Val : EltTy → Type} (w : (⟨S50000x64, .f32⟩ : BufTy).Contents Val) :
    ((TRef.of main_call3_v6 : TRef sig ⟨S50000x64, .f32⟩).ofBuf w : (⟨S50000x64, .f32⟩ : BufTy).Contents Val) = w := cast_eq _ _
theorem toBuf_call3_v6 {Val : EltTy → Type} (w : (⟨S50000x64, .f32⟩ : BufTy).Contents Val) :
    ((TRef.of main_call3_v6 : TRef sig ⟨S50000x64, .f32⟩).toBuf w : (⟨S50000x64, .f32⟩ : BufTy).Contents Val) = w := cast_eq _ _
theorem ofBuf_call3_cst_1 {Val : EltTy → Type} (w : (⟨S_, .f32⟩ : BufTy).Contents Val) :
    ((TRef.of main_call3_cst_1 : TRef sig ⟨S_, .f32⟩).ofBuf w : (⟨S_, .f32⟩ : BufTy).Contents Val) = w := cast_eq _ _
theorem toBuf_call3_cst_1 {Val : EltTy → Type} (w : (⟨S_, .f32⟩ : BufTy).Contents Val) :
    ((TRef.of main_call3_cst_1 : TRef sig ⟨S_, .f32⟩).toBuf w : (⟨S_, .f32⟩ : BufTy).Contents Val) = w := cast_eq _ _
theorem ofBuf_call3_v7 {Val : EltTy → Type} (w : (⟨S50000, .f32⟩ : BufTy).Contents Val) :
    ((TRef.of main_call3_v7 : TRef sig ⟨S50000, .f32⟩).ofBuf w : (⟨S50000, .f32⟩ : BufTy).Contents Val) = w := cast_eq _ _
theorem toBuf_call3_v7 {Val : EltTy → Type} (w : (⟨S50000, .f32⟩ : BufTy).Contents Val) :
    ((TRef.of main_call3_v7 : TRef sig ⟨S50000, .f32⟩).toBuf w : (⟨S50000, .f32⟩ : BufTy).Contents Val) = w := cast_eq _ _
theorem ofBuf_call3_v8 {Val : EltTy → Type} (w : (⟨S50000x1, .f32⟩ : BufTy).Contents Val) :
    ((TRef.of main_call3_v8 : TRef sig ⟨S50000x1, .f32⟩).ofBuf w : (⟨S50000x1, .f32⟩ : BufTy).Contents Val) = w := cast_eq _ _
theorem toBuf_call3_v8 {Val : EltTy → Type} (w : (⟨S50000x1, .f32⟩ : BufTy).Contents Val) :
    ((TRef.of main_call3_v8 : TRef sig ⟨S50000x1, .f32⟩).toBuf w : (⟨S50000x1, .f32⟩ : BufTy).Contents Val) = w := cast_eq _ _
theorem ofBuf_call3_v9 {Val : EltTy → Type} (w : (⟨S50000x1, .f32⟩ : BufTy).Contents Val) :
    ((TRef.of main_call3_v9 : TRef sig ⟨S50000x1, .f32⟩).ofBuf w : (⟨S50000x1, .f32⟩ : BufTy).Contents Val) = w := cast_eq _ _
theorem toBuf_call3_v9 {Val : EltTy → Type} (w : (⟨S50000x1, .f32⟩ : BufTy).Contents Val) :
    ((TRef.of main_call3_v9 : TRef sig ⟨S50000x1, .f32⟩).toBuf w : (⟨S50000x1, .f32⟩ : BufTy).Contents Val) = w := cast_eq _ _
theorem ofBuf_call3_v10 {Val : EltTy → Type} (w : (⟨S50000x64, .f32⟩ : BufTy).Contents Val) :
    ((TRef.of main_call3_v10 : TRef sig ⟨S50000x64, .f32⟩).ofBuf w : (⟨S50000x64, .f32⟩ : BufTy).Contents Val) = w := cast_eq _ _
theorem toBuf_call3_v10 {Val : EltTy → Type} (w : (⟨S50000x64, .f32⟩ : BufTy).Contents Val) :
    ((TRef.of main_call3_v10 : TRef sig ⟨S50000x64, .f32⟩).toBuf w : (⟨S50000x64, .f32⟩ : BufTy).Contents Val) = w := cast_eq _ _
theorem ofBuf_v76 {Val : EltTy → Type} (w : (⟨S50000x64, .f32⟩ : BufTy).Contents Val) :
    ((TRef.of main_v76 : TRef sig ⟨S50000x64, .f32⟩).ofBuf w : (⟨S50000x64, .f32⟩ : BufTy).Contents Val) = w := cast_eq _ _
theorem toBuf_v76 {Val : EltTy → Type} (w : (⟨S50000x64, .f32⟩ : BufTy).Contents Val) :
    ((TRef.of main_v76 : TRef sig ⟨S50000x64, .f32⟩).toBuf w : (⟨S50000x64, .f32⟩ : BufTy).Contents Val) = w := cast_eq _ _

/-! ## Stretch A, in its three parts -/

theorem stageA0_sources (he : Y (Proc.devRef .tc main_arg1) = x1) : after (opsA0 (F := Ideal)) Y (Proc.devRef .tc main_v3) = Cert.ReferenceIdeal.ReadP.val_main_v3 (F := Ideal) x1 := by
  subst he; after_results_simp; rfl
theorem stageA0_targets (he : Y (Proc.devRef .tc main_arg1) = x1) : after (opsA0 (F := Ideal)) Y (Proc.devRef .tc main_v6) = Cert.ReferenceIdeal.ReadP.val_main_v6 (F := Ideal) x1 := by
  subst he; after_results_simp; rfl
theorem stageA0_positive (he : Y (Proc.devRef .tc main_arg1) = x1) : after (opsA0 (F := Ideal)) Y (Proc.devRef .tc main_v12) = Cert.ReferenceIdeal.ReadP.val_main_v12 (F := Ideal) x1 := by
  subst he; after_results_simp; rfl
theorem stageA0_rsqrt (he : Y (Proc.devRef .tc main_arg1) = x1) : after (opsA0 (F := Ideal)) Y (Proc.devRef .tc main_v13) = Cert.ReferenceIdeal.ReadP.val_main_v13 (F := Ideal) x1 := by
  subst he; after_results_simp; rfl
theorem stageA0_zero : after (opsA0 (F := Ideal)) Y (Proc.devRef .tc main_cst_2) = Cert.ReferenceIdeal.ReadP.val_main_cst_2 (F := Ideal) := by
  after_results_simp; rfl
theorem keepsA0_arg0 : after (opsA0 (F := Ideal)) Y (Proc.devRef .tc main_arg0) = Y (Proc.devRef .tc main_arg0) := by
  after_results_simp
theorem keepsA0_arg2 : after (opsA0 (F := Ideal)) Y (Proc.devRef .tc main_arg2) = Y (Proc.devRef .tc main_arg2) := by
  after_results_simp
theorem keepsA0_arg3 : after (opsA0 (F := Ideal)) Y (Proc.devRef .tc main_arg3) = Y (Proc.devRef .tc main_arg3) := by
  after_results_simp
theorem keepsA0_arg4 : after (opsA0 (F := Ideal)) Y (Proc.devRef .tc main_arg4) = Y (Proc.devRef .tc main_arg4) := by
  after_results_simp
theorem keepsA0_arg5 : after (opsA0 (F := Ideal)) Y (Proc.devRef .tc main_arg5) = Y (Proc.devRef .tc main_arg5) := by
  after_results_simp
theorem keepsA0_arg6 : after (opsA0 (F := Ideal)) Y (Proc.devRef .tc main_arg6) = Y (Proc.devRef .tc main_arg6) := by
  after_results_simp

theorem stageA1_factor (hp : Y (Proc.devRef .tc main_v12) = Cert.ReferenceIdeal.ReadP.val_main_v12 (F := Ideal) x1) (hr : Y (Proc.devRef .tc main_v13) = Cert.ReferenceIdeal.ReadP.val_main_v13 (F := Ideal) x1)
    (hz : Y (Proc.devRef .tc main_cst_2) = Cert.ReferenceIdeal.ReadP.val_main_cst_2 (F := Ideal)) :
    after (opsA1 (F := Ideal)) Y (Proc.devRef .tc main_v14) = Cert.ReferenceIdeal.ReadP.val_main_v14 (F := Ideal) x1 := by
  after_results_simp; rw [hp, hr, hz]
  simp only [ofBuf_toBuf, ofBuf_cst_2, toBuf_cst_2, ofBuf_call0_v0, toBuf_call0_v0, ofBuf_call0_v1, toBuf_call0_v1, ofBuf_v12, toBuf_v12, ofBuf_v13, toBuf_v13, ofBuf_v14, toBuf_v14, ofBuf_v48, toBuf_v48, ofBuf_v46, toBuf_v46, ofBuf_v51, toBuf_v51, ofBuf_v52, toBuf_v52, ofBuf_v71, toBuf_v71, ofBuf_v69, toBuf_v69, ofBuf_v74, toBuf_v74, ofBuf_v75, toBuf_v75, ofBuf_call3_cst, toBuf_call3_cst, ofBuf_call3_v0, toBuf_call3_v0, ofBuf_call3_cst_0, toBuf_call3_cst_0, ofBuf_call3_v1, toBuf_call3_v1, ofBuf_call3_v2, toBuf_call3_v2, ofBuf_call3_v3, toBuf_call3_v3, ofBuf_call3_v4, toBuf_call3_v4, ofBuf_call3_v5, toBuf_call3_v5, ofBuf_call3_v6, toBuf_call3_v6, ofBuf_call3_cst_1, toBuf_call3_cst_1, ofBuf_call3_v7, toBuf_call3_v7, ofBuf_call3_v8, toBuf_call3_v8, ofBuf_call3_v9, toBuf_call3_v9, ofBuf_call3_v10, toBuf_call3_v10, ofBuf_v76, toBuf_v76]
  rfl
theorem keepsA1_v3 : after (opsA1 (F := Ideal)) Y (Proc.devRef .tc main_v3) = Y (Proc.devRef .tc main_v3) := by
  after_results_simp
theorem keepsA1_v6 : after (opsA1 (F := Ideal)) Y (Proc.devRef .tc main_v6) = Y (Proc.devRef .tc main_v6) := by
  after_results_simp
theorem keepsA1_arg0 : after (opsA1 (F := Ideal)) Y (Proc.devRef .tc main_arg0) = Y (Proc.devRef .tc main_arg0) := by
  after_results_simp
theorem keepsA1_arg2 : after (opsA1 (F := Ideal)) Y (Proc.devRef .tc main_arg2) = Y (Proc.devRef .tc main_arg2) := by
  after_results_simp
theorem keepsA1_arg3 : after (opsA1 (F := Ideal)) Y (Proc.devRef .tc main_arg3) = Y (Proc.devRef .tc main_arg3) := by
  after_results_simp
theorem keepsA1_arg4 : after (opsA1 (F := Ideal)) Y (Proc.devRef .tc main_arg4) = Y (Proc.devRef .tc main_arg4) := by
  after_results_simp
theorem keepsA1_arg5 : after (opsA1 (F := Ideal)) Y (Proc.devRef .tc main_arg5) = Y (Proc.devRef .tc main_arg5) := by
  after_results_simp
theorem keepsA1_arg6 : after (opsA1 (F := Ideal)) Y (Proc.devRef .tc main_arg6) = Y (Proc.devRef .tc main_arg6) := by
  after_results_simp

theorem stageA2_weights (hs : Y (Proc.devRef .tc main_v3) = Cert.ReferenceIdeal.ReadP.val_main_v3 (F := Ideal) x1) (hd : Y (Proc.devRef .tc main_v6) = Cert.ReferenceIdeal.ReadP.val_main_v6 (F := Ideal) x1) (hf : Y (Proc.devRef .tc main_v14) = Cert.ReferenceIdeal.ReadP.val_main_v14 (F := Ideal) x1) :
    after (opsA2 (F := Ideal)) Y (Proc.devRef .tc main_v29) = Cert.ReferenceIdeal.ReadP.val_main_v29 (F := Ideal) x1 := by
  after_results_simp; rw [hs, hd, hf]; rfl
theorem keepsA2_v3 : after (opsA2 (F := Ideal)) Y (Proc.devRef .tc main_v3) = Y (Proc.devRef .tc main_v3) := by
  after_results_simp
theorem keepsA2_v6 : after (opsA2 (F := Ideal)) Y (Proc.devRef .tc main_v6) = Y (Proc.devRef .tc main_v6) := by
  after_results_simp
theorem keepsA2_arg0 : after (opsA2 (F := Ideal)) Y (Proc.devRef .tc main_arg0) = Y (Proc.devRef .tc main_arg0) := by
  after_results_simp
theorem keepsA2_arg2 : after (opsA2 (F := Ideal)) Y (Proc.devRef .tc main_arg2) = Y (Proc.devRef .tc main_arg2) := by
  after_results_simp
theorem keepsA2_arg3 : after (opsA2 (F := Ideal)) Y (Proc.devRef .tc main_arg3) = Y (Proc.devRef .tc main_arg3) := by
  after_results_simp
theorem keepsA2_arg4 : after (opsA2 (F := Ideal)) Y (Proc.devRef .tc main_arg4) = Y (Proc.devRef .tc main_arg4) := by
  after_results_simp
theorem keepsA2_arg5 : after (opsA2 (F := Ideal)) Y (Proc.devRef .tc main_arg5) = Y (Proc.devRef .tc main_arg5) := by
  after_results_simp
theorem keepsA2_arg6 : after (opsA2 (F := Ideal)) Y (Proc.devRef .tc main_arg6) = Y (Proc.devRef .tc main_arg6) := by
  after_results_simp

/-! ## Stretch B -/

theorem stageB (hs : Y (Proc.devRef .tc main_v3) = Cert.ReferenceIdeal.ReadP.val_main_v3 (F := Ideal) x1) (hd : Y (Proc.devRef .tc main_v6) = Cert.ReferenceIdeal.ReadP.val_main_v6 (F := Ideal) x1) (hn : Y (Proc.devRef .tc main_v29) = Cert.ReferenceIdeal.ReadP.val_main_v29 (F := Ideal) x1)
    (h0 : Y (Proc.devRef .tc main_arg0) = x0) (h2 : Y (Proc.devRef .tc main_arg2) = x2) :
    after (opsB (F := Ideal)) Y (Proc.devRef .tc main_v43) = Cert.ReferenceIdeal.ReadP.val_main_v43 (F := Ideal) x0 x1 x2 := by
  after_results_simp; rw [hs, hd, hn, h0, h2]; rfl
theorem keepsB_v3 : after (opsB (F := Ideal)) Y (Proc.devRef .tc main_v3) = Y (Proc.devRef .tc main_v3) := by
  after_results_simp
theorem keepsB_v6 : after (opsB (F := Ideal)) Y (Proc.devRef .tc main_v6) = Y (Proc.devRef .tc main_v6) := by
  after_results_simp
theorem keepsB_v29 : after (opsB (F := Ideal)) Y (Proc.devRef .tc main_v29) = Y (Proc.devRef .tc main_v29) := by
  after_results_simp
theorem keepsB_arg3 : after (opsB (F := Ideal)) Y (Proc.devRef .tc main_arg3) = Y (Proc.devRef .tc main_arg3) := by
  after_results_simp
theorem keepsB_arg4 : after (opsB (F := Ideal)) Y (Proc.devRef .tc main_arg4) = Y (Proc.devRef .tc main_arg4) := by
  after_results_simp
theorem keepsB_arg5 : after (opsB (F := Ideal)) Y (Proc.devRef .tc main_arg5) = Y (Proc.devRef .tc main_arg5) := by
  after_results_simp
theorem keepsB_arg6 : after (opsB (F := Ideal)) Y (Proc.devRef .tc main_arg6) = Y (Proc.devRef .tc main_arg6) := by
  after_results_simp

/-! ## Stretch C -/

theorem stageC (hagg : Y (Proc.devRef .tc main_v43) = Cert.ReferenceIdeal.ReadP.val_main_v43 (F := Ideal) x0 x1 x2) (h3 : Y (Proc.devRef .tc main_arg3) = x3) (h6 : Y (Proc.devRef .tc main_arg6) = x6) :
    after (opsC (F := Ideal)) Y (Proc.devRef .tc main_v52) = Cert.ReferenceIdeal.ReadP.val_main_v52 (F := Ideal) x0 x1 x2 x3 x6 := by
  after_results_simp; rw [hagg, h3, h6]
  simp only [ofBuf_toBuf, ofBuf_cst_2, toBuf_cst_2, ofBuf_call0_v0, toBuf_call0_v0, ofBuf_call0_v1, toBuf_call0_v1, ofBuf_v12, toBuf_v12, ofBuf_v13, toBuf_v13, ofBuf_v14, toBuf_v14, ofBuf_v48, toBuf_v48, ofBuf_v46, toBuf_v46, ofBuf_v51, toBuf_v51, ofBuf_v52, toBuf_v52, ofBuf_v71, toBuf_v71, ofBuf_v69, toBuf_v69, ofBuf_v74, toBuf_v74, ofBuf_v75, toBuf_v75, ofBuf_call3_cst, toBuf_call3_cst, ofBuf_call3_v0, toBuf_call3_v0, ofBuf_call3_cst_0, toBuf_call3_cst_0, ofBuf_call3_v1, toBuf_call3_v1, ofBuf_call3_v2, toBuf_call3_v2, ofBuf_call3_v3, toBuf_call3_v3, ofBuf_call3_v4, toBuf_call3_v4, ofBuf_call3_v5, toBuf_call3_v5, ofBuf_call3_v6, toBuf_call3_v6, ofBuf_call3_cst_1, toBuf_call3_cst_1, ofBuf_call3_v7, toBuf_call3_v7, ofBuf_call3_v8, toBuf_call3_v8, ofBuf_call3_v9, toBuf_call3_v9, ofBuf_call3_v10, toBuf_call3_v10, ofBuf_v76, toBuf_v76]
  rfl
theorem keepsC_v3 : after (opsC (F := Ideal)) Y (Proc.devRef .tc main_v3) = Y (Proc.devRef .tc main_v3) := by
  after_results_simp
theorem keepsC_v6 : after (opsC (F := Ideal)) Y (Proc.devRef .tc main_v6) = Y (Proc.devRef .tc main_v6) := by
  after_results_simp
theorem keepsC_v29 : after (opsC (F := Ideal)) Y (Proc.devRef .tc main_v29) = Y (Proc.devRef .tc main_v29) := by
  after_results_simp
theorem keepsC_arg4 : after (opsC (F := Ideal)) Y (Proc.devRef .tc main_arg4) = Y (Proc.devRef .tc main_arg4) := by
  after_results_simp
theorem keepsC_arg5 : after (opsC (F := Ideal)) Y (Proc.devRef .tc main_arg5) = Y (Proc.devRef .tc main_arg5) := by
  after_results_simp
theorem keepsC_arg6 : after (opsC (F := Ideal)) Y (Proc.devRef .tc main_arg6) = Y (Proc.devRef .tc main_arg6) := by
  after_results_simp

/-! ## Stretch D -/

theorem stageD (hs : Y (Proc.devRef .tc main_v3) = Cert.ReferenceIdeal.ReadP.val_main_v3 (F := Ideal) x1) (hd : Y (Proc.devRef .tc main_v6) = Cert.ReferenceIdeal.ReadP.val_main_v6 (F := Ideal) x1) (hn : Y (Proc.devRef .tc main_v29) = Cert.ReferenceIdeal.ReadP.val_main_v29 (F := Ideal) x1)
    (hh : Y (Proc.devRef .tc main_v52) = Cert.ReferenceIdeal.ReadP.val_main_v52 (F := Ideal) x0 x1 x2 x3 x6) (h4 : Y (Proc.devRef .tc main_arg4) = x4) :
    after (opsD (F := Ideal)) Y (Proc.devRef .tc main_v66) = Cert.ReferenceIdeal.ReadP.val_main_v66 (F := Ideal) x0 x1 x2 x3 x4 x6 := by
  after_results_simp; rw [hs, hd, hn, hh, h4]; rfl
theorem keepsD_arg5 : after (opsD (F := Ideal)) Y (Proc.devRef .tc main_arg5) = Y (Proc.devRef .tc main_arg5) := by
  after_results_simp
theorem keepsD_arg6 : after (opsD (F := Ideal)) Y (Proc.devRef .tc main_arg6) = Y (Proc.devRef .tc main_arg6) := by
  after_results_simp

/-! ## Stretch E -/

theorem stageE (hagg : Y (Proc.devRef .tc main_v66) = Cert.ReferenceIdeal.ReadP.val_main_v66 (F := Ideal) x0 x1 x2 x3 x4 x6) (h5 : Y (Proc.devRef .tc main_arg5) = x5) (h6 : Y (Proc.devRef .tc main_arg6) = x6) :
    after (opsE (F := Ideal)) Y (Proc.devRef .tc main_v75) = Cert.ReferenceIdeal.ReadP.val_main_v75 (F := Ideal) x0 x1 x2 x3 x4 x5 x6 := by
  after_results_simp; rw [hagg, h5, h6]
  simp only [ofBuf_toBuf, ofBuf_cst_2, toBuf_cst_2, ofBuf_call0_v0, toBuf_call0_v0, ofBuf_call0_v1, toBuf_call0_v1, ofBuf_v12, toBuf_v12, ofBuf_v13, toBuf_v13, ofBuf_v14, toBuf_v14, ofBuf_v48, toBuf_v48, ofBuf_v46, toBuf_v46, ofBuf_v51, toBuf_v51, ofBuf_v52, toBuf_v52, ofBuf_v71, toBuf_v71, ofBuf_v69, toBuf_v69, ofBuf_v74, toBuf_v74, ofBuf_v75, toBuf_v75, ofBuf_call3_cst, toBuf_call3_cst, ofBuf_call3_v0, toBuf_call3_v0, ofBuf_call3_cst_0, toBuf_call3_cst_0, ofBuf_call3_v1, toBuf_call3_v1, ofBuf_call3_v2, toBuf_call3_v2, ofBuf_call3_v3, toBuf_call3_v3, ofBuf_call3_v4, toBuf_call3_v4, ofBuf_call3_v5, toBuf_call3_v5, ofBuf_call3_v6, toBuf_call3_v6, ofBuf_call3_cst_1, toBuf_call3_cst_1, ofBuf_call3_v7, toBuf_call3_v7, ofBuf_call3_v8, toBuf_call3_v8, ofBuf_call3_v9, toBuf_call3_v9, ofBuf_call3_v10, toBuf_call3_v10, ofBuf_v76, toBuf_v76]
  rfl

/-! ## Stretch F -/

theorem stageF (hh : Y (Proc.devRef .tc main_v75) = Cert.ReferenceIdeal.ReadP.val_main_v75 (F := Ideal) x0 x1 x2 x3 x4 x5 x6) :
    after (opsF (F := Ideal)) Y (Proc.devRef .tc main_v76) = Cert.ReferenceIdeal.ReadP.val_main_v76 (F := Ideal) x0 x1 x2 x3 x4 x5 x6 := by
  after_results_simp; rw [hh]
  simp only [ofBuf_toBuf, ofBuf_cst_2, toBuf_cst_2, ofBuf_call0_v0, toBuf_call0_v0, ofBuf_call0_v1, toBuf_call0_v1, ofBuf_v12, toBuf_v12, ofBuf_v13, toBuf_v13, ofBuf_v14, toBuf_v14, ofBuf_v48, toBuf_v48, ofBuf_v46, toBuf_v46, ofBuf_v51, toBuf_v51, ofBuf_v52, toBuf_v52, ofBuf_v71, toBuf_v71, ofBuf_v69, toBuf_v69, ofBuf_v74, toBuf_v74, ofBuf_v75, toBuf_v75, ofBuf_call3_cst, toBuf_call3_cst, ofBuf_call3_v0, toBuf_call3_v0, ofBuf_call3_cst_0, toBuf_call3_cst_0, ofBuf_call3_v1, toBuf_call3_v1, ofBuf_call3_v2, toBuf_call3_v2, ofBuf_call3_v3, toBuf_call3_v3, ofBuf_call3_v4, toBuf_call3_v4, ofBuf_call3_v5, toBuf_call3_v5, ofBuf_call3_v6, toBuf_call3_v6, ofBuf_call3_cst_1, toBuf_call3_cst_1, ofBuf_call3_v7, toBuf_call3_v7, ofBuf_call3_v8, toBuf_call3_v8, ofBuf_call3_v9, toBuf_call3_v9, ofBuf_call3_v10, toBuf_call3_v10, ofBuf_v76, toBuf_v76]
  rfl

/-! ## The whole line -/

/-- From any contents X, the result buffer after the 109 operations holds the last stage's function of X's seven argument
    arrays. -/
theorem value (X : Valuation τ sig (Elt Ideal)) :
    after (Cert.ReferenceIdeal.ValueP.ops (F := Ideal)) X (Proc.devRef .tc main_v76)
      = Cert.ReferenceIdeal.ReadP.val_main_v76 (F := Ideal) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) := by
  rw [ops_stretches, after_append, after_append, after_append, after_append, after_append, after_append, after_append]
  -- the contents after each stretch
  generalize hZ0 : after (opsA0 (F := Ideal)) X = Z0
  generalize hZ1 : after (opsA1 (F := Ideal)) Z0 = Z1
  generalize hY1 : after (opsA2 (F := Ideal)) Z1 = Y1
  generalize hY2 : after (opsB (F := Ideal)) Y1 = Y2
  generalize hY3 : after (opsC (F := Ideal)) Y2 = Y3
  generalize hY4 : after (opsD (F := Ideal)) Y3 = Y4
  generalize hY5 : after (opsE (F := Ideal)) Y4 = Y5
  -- after the first part of A
  have z3 : Z0 (Proc.devRef .tc main_v3) = _ := hZ0 ▸ stageA0_sources X (X (Proc.devRef .tc main_arg1)) rfl
  have z6 : Z0 (Proc.devRef .tc main_v6) = _ := hZ0 ▸ stageA0_targets X (X (Proc.devRef .tc main_arg1)) rfl
  have z12 : Z0 (Proc.devRef .tc main_v12) = _ := hZ0 ▸ stageA0_positive X (X (Proc.devRef .tc main_arg1)) rfl
  have z13 : Z0 (Proc.devRef .tc main_v13) = _ := hZ0 ▸ stageA0_rsqrt X (X (Proc.devRef .tc main_arg1)) rfl
  have zc : Z0 (Proc.devRef .tc main_cst_2) = _ := hZ0 ▸ stageA0_zero X
  have kz0 : Z0 (Proc.devRef .tc main_arg0) = X (Proc.devRef .tc main_arg0) := hZ0 ▸ keepsA0_arg0 X
  have kz2 : Z0 (Proc.devRef .tc main_arg2) = X (Proc.devRef .tc main_arg2) := hZ0 ▸ keepsA0_arg2 X
  have kz3 : Z0 (Proc.devRef .tc main_arg3) = X (Proc.devRef .tc main_arg3) := hZ0 ▸ keepsA0_arg3 X
  have kz4 : Z0 (Proc.devRef .tc main_arg4) = X (Proc.devRef .tc main_arg4) := hZ0 ▸ keepsA0_arg4 X
  have kz5 : Z0 (Proc.devRef .tc main_arg5) = X (Proc.devRef .tc main_arg5) := hZ0 ▸ keepsA0_arg5 X
  have kz6 : Z0 (Proc.devRef .tc main_arg6) = X (Proc.devRef .tc main_arg6) := hZ0 ▸ keepsA0_arg6 X
  -- after the second part of A
  have y14 : Z1 (Proc.devRef .tc main_v14) = _ := hZ1 ▸ stageA1_factor Z0 (X (Proc.devRef .tc main_arg1)) z12 z13 zc
  have y3 : Z1 (Proc.devRef .tc main_v3) = _ := (hZ1 ▸ keepsA1_v3 Z0).trans z3
  have y6 : Z1 (Proc.devRef .tc main_v6) = _ := (hZ1 ▸ keepsA1_v6 Z0).trans z6
  have ky0 : Z1 (Proc.devRef .tc main_arg0) = X (Proc.devRef .tc main_arg0) := (hZ1 ▸ keepsA1_arg0 Z0).trans kz0
  have ky2 : Z1 (Proc.devRef .tc main_arg2) = X (Proc.devRef .tc main_arg2) := (hZ1 ▸ keepsA1_arg2 Z0).trans kz2
  have ky3 : Z1 (Proc.devRef .tc main_arg3) = X (Proc.devRef .tc main_arg3) := (hZ1 ▸ keepsA1_arg3 Z0).trans kz3
  have ky4 : Z1 (Proc.devRef .tc main_arg4) = X (Proc.devRef .tc main_arg4) := (hZ1 ▸ keepsA1_arg4 Z0).trans kz4
  have ky5 : Z1 (Proc.devRef .tc main_arg5) = X (Proc.devRef .tc main_arg5) := (hZ1 ▸ keepsA1_arg5 Z0).trans kz5
  have ky6 : Z1 (Proc.devRef .tc main_arg6) = X (Proc.devRef .tc main_arg6) := (hZ1 ▸ keepsA1_arg6 Z0).trans kz6
  -- after A
  have a29 : Y1 (Proc.devRef .tc main_v29) = _ := hY1 ▸ stageA2_weights Z1 (X (Proc.devRef .tc main_arg1)) y3 y6 y14
  have a3 : Y1 (Proc.devRef .tc main_v3) = _ := (hY1 ▸ keepsA2_v3 Z1).trans y3
  have a6 : Y1 (Proc.devRef .tc main_v6) = _ := (hY1 ▸ keepsA2_v6 Z1).trans y6
  have ka0 : Y1 (Proc.devRef .tc main_arg0) = X (Proc.devRef .tc main_arg0) := (hY1 ▸ keepsA2_arg0 Z1).trans ky0
  have ka2 : Y1 (Proc.devRef .tc main_arg2) = X (Proc.devRef .tc main_arg2) := (hY1 ▸ keepsA2_arg2 Z1).trans ky2
  have ka3 : Y1 (Proc.devRef .tc main_arg3) = X (Proc.devRef .tc main_arg3) := (hY1 ▸ keepsA2_arg3 Z1).trans ky3
  have ka4 : Y1 (Proc.devRef .tc main_arg4) = X (Proc.devRef .tc main_arg4) := (hY1 ▸ keepsA2_arg4 Z1).trans ky4
  have ka5 : Y1 (Proc.devRef .tc main_arg5) = X (Proc.devRef .tc main_arg5) := (hY1 ▸ keepsA2_arg5 Z1).trans ky5
  have ka6 : Y1 (Proc.devRef .tc main_arg6) = X (Proc.devRef .tc main_arg6) := (hY1 ▸ keepsA2_arg6 Z1).trans ky6
  -- after B
  have b43 : Y2 (Proc.devRef .tc main_v43) = _ := hY2 ▸ stageB Y1 (X (Proc.devRef .tc main_arg0)) (X (Proc.devRef .tc main_arg1)) (X (Proc.devRef .tc main_arg2)) a3 a6 a29 ka0 ka2
  have b3 : Y2 (Proc.devRef .tc main_v3) = _ := (hY2 ▸ keepsB_v3 Y1).trans a3
  have b6 : Y2 (Proc.devRef .tc main_v6) = _ := (hY2 ▸ keepsB_v6 Y1).trans a6
  have b29 : Y2 (Proc.devRef .tc main_v29) = _ := (hY2 ▸ keepsB_v29 Y1).trans a29
  have kb3 : Y2 (Proc.devRef .tc main_arg3) = X (Proc.devRef .tc main_arg3) := (hY2 ▸ keepsB_arg3 Y1).trans ka3
  have kb4 : Y2 (Proc.devRef .tc main_arg4) = X (Proc.devRef .tc main_arg4) := (hY2 ▸ keepsB_arg4 Y1).trans ka4
  have kb5 : Y2 (Proc.devRef .tc main_arg5) = X (Proc.devRef .tc main_arg5) := (hY2 ▸ keepsB_arg5 Y1).trans ka5
  have kb6 : Y2 (Proc.devRef .tc main_arg6) = X (Proc.devRef .tc main_arg6) := (hY2 ▸ keepsB_arg6 Y1).trans ka6
  -- after C
  have c52 : Y3 (Proc.devRef .tc main_v52) = _ := hY3 ▸ stageC Y2 (X (Proc.devRef .tc main_arg0)) (X (Proc.devRef .tc main_arg1)) (X (Proc.devRef .tc main_arg2)) (X (Proc.devRef .tc main_arg3)) (X (Proc.devRef .tc main_arg6)) b43 kb3 kb6
  have c3 : Y3 (Proc.devRef .tc main_v3) = _ := (hY3 ▸ keepsC_v3 Y2).trans b3
  have c6 : Y3 (Proc.devRef .tc main_v6) = _ := (hY3 ▸ keepsC_v6 Y2).trans b6
  have c29 : Y3 (Proc.devRef .tc main_v29) = _ := (hY3 ▸ keepsC_v29 Y2).trans b29
  have kc4 : Y3 (Proc.devRef .tc main_arg4) = X (Proc.devRef .tc main_arg4) := (hY3 ▸ keepsC_arg4 Y2).trans kb4
  have kc5 : Y3 (Proc.devRef .tc main_arg5) = X (Proc.devRef .tc main_arg5) := (hY3 ▸ keepsC_arg5 Y2).trans kb5
  have kc6 : Y3 (Proc.devRef .tc main_arg6) = X (Proc.devRef .tc main_arg6) := (hY3 ▸ keepsC_arg6 Y2).trans kb6
  -- after D
  have d66 : Y4 (Proc.devRef .tc main_v66) = _ := hY4 ▸ stageD Y3 (X (Proc.devRef .tc main_arg0)) (X (Proc.devRef .tc main_arg1)) (X (Proc.devRef .tc main_arg2)) (X (Proc.devRef .tc main_arg3)) (X (Proc.devRef .tc main_arg4)) (X (Proc.devRef .tc main_arg6)) c3 c6 c29 c52 kc4
  have kd5 : Y4 (Proc.devRef .tc main_arg5) = X (Proc.devRef .tc main_arg5) := (hY4 ▸ keepsD_arg5 Y3).trans kc5
  have kd6 : Y4 (Proc.devRef .tc main_arg6) = X (Proc.devRef .tc main_arg6) := (hY4 ▸ keepsD_arg6 Y3).trans kc6
  -- after E, then F
  have e75 : Y5 (Proc.devRef .tc main_v75) = _ := hY5 ▸ stageE Y4 (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) d66 kd5 kd6
  exact stageF Y5 (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) e75

/-! ## The run -/

set_option maxRecDepth 8192 in
set_option maxHeartbeats 43600000 in
/-- On every device, from any memory with zero counters: every weakly fair execution of the reference terminates with the
    result array at the last stage's function of the seven arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = Cert.ReferenceIdeal.ReadP.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v76).trans (value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq Cert.ReferenceIdeal.ValueP.scopedRefs_eq Cert.ReferenceIdeal.ValueP.scopedSems_eq defs main (fun _ => Cert.ReferenceIdeal.ValueP.ops)
      Cert.ReferenceIdeal.ValueP.main_eq (fun _ => Cert.ReferenceIdeal.ValueP.ops_sub) m ρ)

end Cert.ReferenceIdeal.Staged

end
-- ==== Proof.lean ====
/-
  Two-layer graph convolution with PReLU and a final row-wise log-softmax, as a kernel program of four grid regions (the two
  dense projections and the two elementwise epilogues) among host stretches (the degree normalization and the two
  gather–scale–scatter-add aggregations), against a plain reference that does everything on the host.

  Read over the extended reals, both programs compute the same function of the seven arguments, stage by stage:

    - the edge lists with self-loops, the in-degrees, their inverse square roots where positive (zero elsewhere) and the
      edge weights are computed by the same host operations in both programs;
    - each projection block is a sum over the inner index of products, and the blocks tile the reference's whole product
      (the roundings to bf16 on the way into the matrix unit are the identity here, the accumulator starts at zero);
    - each aggregation is the same gather, scaling and scatter-add applied to equal operands;
    - each epilogue is the same expression of the aggregate, the bias and the slope at every entry, and the log-softmax
      of a row depends on that row only, so the row blocks tile the reference's result.

  Only the reading of a reduction as a sum or a fold over its axis is used; no distributivity or cancellation, so the
  finiteness of the inputs is never opened. The idealization rewrote no operation, so nothing is owed for it. Each program
  terminates without a fault and leaves its arguments as launched.
-/
import proofs.«162441_j60335700574378_1_alg».proof.Defs
import proofs.«162441_j60335700574378_1_alg».proof.Proof.Gen.Kernel
import proofs.«162441_j60335700574378_1_alg».proof.Proof.Gen.Kernel.Frame
import proofs.«162441_j60335700574378_1_alg».proof.Proof.Gen.KernelIdeal
import proofs.«162441_j60335700574378_1_alg».proof.Proof.Gen.KernelIdeal.Frame
import proofs.«162441_j60335700574378_1_alg».proof.Proof.Gen.ReferenceIdeal
import proofs.«162441_j60335700574378_1_alg».proof.Proof.Gen.Pre_finite_inputs
import proofs.«162441_j60335700574378_1_alg».proof.Proof.ResultRun
import proofs.«162441_j60335700574378_1_alg».proof.Proof.Fold
import proofs.«162441_j60335700574378_1_alg».proof.Proof.ReferenceRun
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- So does the idealized reference: its run, with the result's value dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Staged.run m ρ)

/-- Both idealized programs, from memories agreeing on the arguments, end with the reference's last stage of the kernel
    program's arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Fold.result m ρ c), (h c).2⟩)
      (Cert.KernelIdeal.ResultRun.run (F := Ideal) m ρ)
  · refine (θ_run Cert.ReferenceIdeal.defs _ _).mono (fun r h c => ⟨(h c).1.trans ?_, (h c).2⟩) (Cert.ReferenceIdeal.Staged.run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
